-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v33)) (v3 : (c : Dev Cert.KernelIdeal.nD) → Buf (Elt Ideal) ((c.tc : Thread Cert.KernelIdeal.nD Cert.KernelIdeal.τ).loc Cert.KernelIdeal.main_v30)) (v4 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_v30) = v3 c
          ∧ r.2.mem ((c.tc : Thread Cert.KernelIdeal.nD Cert.KernelIdeal.τ).loc Cert.KernelIdeal.main_v32) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_v33) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4194304x3 : Shape := ⟨3, ![1, 4194304, 3]⟩
abbrev S1x4194304 : Shape := ⟨2, ![1, 4194304]⟩
abbrev S1x1048576 : Shape := ⟨2, ![1, 1048576]⟩
abbrev S_ : Shape := ⟨0, ![]⟩

class Facts : Prop where
  bcast_S_S1x4194304x3 : S_.BroadcastsInDim S1x4194304x3 (![] : Fin 0 → Fin S1x4194304x3.rank)
  reducesTo_S1x4194304x3_S_d0_1_2 : S1x4194304x3.ReducesTo [0, 1, 2] S_
  h_S_ : 0 < S_.numel
  bcast_S_S1x4194304 : S_.BroadcastsInDim S1x4194304 (![] : Fin 0 → Fin S1x4194304.rank)
  reducesTo_S1x4194304_S_d0_1 : S1x4194304.ReducesTo [0, 1] S_

variable [Facts]

def fn_part1 {F : FTy → Type} [FloatOps F] (main_v13 : IVec S_ 1) (main_v16 : IVec S1x4194304 1) : IVec S_ 1 :=
  let main_c_5 : IVec S_ 1 := constantI S_ 1 1#1
  let main_v17 : IVec S_ 1 := (fun x v => Host.reduce IntOp.andi x v reducesTo_S1x4194304_S_d0_1 h_S_) main_v16 main_c_5
  let main_v18 : IVec S_ 1 := andi main_v13 main_v17
  main_v18

def fn {F : FTy → Type} [FloatOps F] (main_arg0 : FVec F S1x4194304x3 .f32) (main_arg1 : FVec F S1x4194304x3 .f32) (main_arg2 : FVec F S1x4194304x3 .f32) (main_arg3 : FVec F S1x4194304 .f32) (main_arg4 : IVec S1x4194304 32) (main_arg5 : IVec S1x1048576 32) : IVec S_ 1 :=
  let main_v0 : FVec F S1x4194304x3 .f32 := Host.absf main_arg0
  let main_cst : FVec F S_ .f32 := constant S_ .f32 0x7F800000#32
  let main_v1 : FVec F S1x4194304x3 .f32 := broadcastInDim S1x4194304x3 ![] bcast_S_S1x4194304x3 main_cst
  let main_v2 : IVec S1x4194304x3 1 := cmpf .olt main_v0 main_v1
  let main_c : IVec S_ 1 := constantI S_ 1 1#1
  let main_v3 : IVec S_ 1 := (fun x v => Host.reduce IntOp.andi x v reducesTo_S1x4194304x3_S_d0_1_2 h_S_) main_v2 main_c
  let main_v4 : FVec F S1x4194304x3 .f32 := Host.absf main_arg1
  let main_cst_0 : FVec F S_ .f32 := constant S_ .f32 0x7F800000#32
  let main_v5 : FVec F S1x4194304x3 .f32 := broadcastInDim S1x4194304x3 ![] bcast_S_S1x4194304x3 main_cst_0
  let main_v6 : IVec S1x4194304x3 1 := cmpf .olt main_v4 main_v5
  let main_c_1 : IVec S_ 1 := constantI S_ 1 1#1
  let main_v7 : IVec S_ 1 := (fun x v => Host.reduce IntOp.andi x v reducesTo_S1x4194304x3_S_d0_1_2 h_S_) main_v6 main_c_1
  let main_v8 : IVec S_ 1 := andi main_v3 main_v7
  let main_v9 : FVec F S1x4194304x3 .f32 := Host.absf main_arg2
  let main_cst_2 : FVec F S_ .f32 := constant S_ .f32 0x7F800000#32
  let main_v10 : FVec F S1x4194304x3 .f32 := broadcastInDim S1x4194304x3 ![] bcast_S_S1x4194304x3 main_cst_2
  let main_v11 : IVec S1x4194304x3 1 := cmpf .olt main_v9 main_v10
  let main_c_3 : IVec S_ 1 := constantI S_ 1 1#1
  let main_v12 : IVec S_ 1 := (fun x v => Host.reduce IntOp.andi x v reducesTo_S1x4194304x3_S_d0_1_2 h_S_) main_v11 main_c_3
  let main_v13 : IVec S_ 1 := andi main_v8 main_v12
  let main_v14 : FVec F S1x4194304 .f32 := Host.absf main_arg3
  let main_cst_4 : FVec F S_ .f32 := constant S_ .f32 0x7F800000#32
  let main_v15 : FVec F S1x4194304 .f32 := broadcastInDim S1x4194304 ![] bcast_S_S1x4194304 main_cst_4
  let main_v16 : IVec S1x4194304 1 := cmpf .olt main_v14 main_v15
  fn_part1 (F := F) main_v13 main_v16
-- ==== Kernel.lean ====
abbrev S1x4194304x3 : Shape := ⟨3, ![1, 4194304, 3]⟩
abbrev S1x4194304 : Shape := ⟨2, ![1, 4194304]⟩
abbrev S1x1048576 : Shape := ⟨2, ![1, 1048576]⟩
abbrev S_ : Shape := ⟨0, ![]⟩
abbrev S4194304x1 : Shape := ⟨2, ![4194304, 1]⟩
abbrev S1 : Shape := ⟨1, ![1]⟩
abbrev S1x1 : Shape := ⟨2, ![1, 1]⟩
abbrev S4194304 : Shape := ⟨1, ![4194304]⟩
abbrev S1x4194304x1 : Shape := ⟨3, ![1, 4194304, 1]⟩
abbrev S24576x512 : Shape := ⟨2, ![24576, 512]⟩
abbrev S8192x512 : Shape := ⟨2, ![8192, 512]⟩
abbrev S768x512 : Shape := ⟨2, ![768, 512]⟩
abbrev S256x512 : Shape := ⟨2, ![256, 512]⟩
abbrev S768 : Shape := ⟨1, ![768]⟩
abbrev S768x1 : Shape := ⟨2, ![768, 1]⟩
abbrev S256 : Shape := ⟨1, ![256]⟩
abbrev S256x1 : Shape := ⟨2, ![256, 1]⟩

abbrev nBuf : Space → Nat
  | .hbm => 85
  | .vmem => 18
  | .smem => 0
  | _ => 0

abbrev bufTy : (tb : Table) → Fin (tcTables nBuf tb) → BufTy
  | .hbm, ⟨0, _⟩ => ⟨S1x4194304x3, .f32⟩
  | .hbm, ⟨1, _⟩ => ⟨S1x4194304x3, .f32⟩
  | .hbm, ⟨2, _⟩ => ⟨S1x4194304x3, .f32⟩
  | .hbm, ⟨3, _⟩ => ⟨S1x4194304, .f32⟩
  | .hbm, ⟨4, _⟩ => ⟨S1x4194304, .i32⟩
  | .hbm, ⟨5, _⟩ => ⟨S1x1048576, .i32⟩
  | .hbm, ⟨6, _⟩ => ⟨S_, .i32⟩
  | .hbm, ⟨7, _⟩ => ⟨S1x4194304, .i32⟩
  | .hbm, ⟨8, _⟩ => ⟨S1x4194304, .i1⟩
  | .hbm, ⟨9, _⟩ => ⟨S_, .i32⟩
  | .hbm, ⟨10, _⟩ => ⟨S1x4194304, .i32⟩
  | .hbm, ⟨11, _⟩ => ⟨S1x4194304, .i32⟩
  | .hbm, ⟨12, _⟩ => ⟨S1x4194304, .i32⟩
  | .hbm, ⟨13, _⟩ => ⟨S4194304x1, .i32⟩
  | .hbm, ⟨14, _⟩ => ⟨S1, .i32⟩
  | .hbm, ⟨15, _⟩ => ⟨S_, .i32⟩
  | .hbm, ⟨16, _⟩ => ⟨S4194304x1, .i32⟩
  | .hbm, ⟨17, _⟩ => ⟨S4194304x1, .i1⟩
  | .hbm, ⟨18, _⟩ => ⟨S1x1, .i32⟩
  | .hbm, ⟨19, _⟩ => ⟨S4194304x1, .i32⟩
  | .hbm, ⟨20, _⟩ => ⟨S4194304x1, .i1⟩
  | .hbm, ⟨21, _⟩ => ⟨S4194304x1, .i1⟩
  | .hbm, ⟨22, _⟩ => ⟨S_, .i1⟩
  | .hbm, ⟨23, _⟩ => ⟨S4194304, .i1⟩
  | .hbm, ⟨24, _⟩ => ⟨S1x4194304, .i32⟩
  | .hbm, ⟨25, _⟩ => ⟨S1x4194304, .i1⟩
  | .hbm, ⟨26, _⟩ => ⟨S_, .i32⟩
  | .hbm, ⟨27, _⟩ => ⟨S1x4194304, .i32⟩
  | .hbm, ⟨28, _⟩ => ⟨S1x4194304, .i32⟩
  | .hbm, ⟨29, _⟩ => ⟨S_, .i32⟩
  | .hbm, ⟨30, _⟩ => ⟨S1x4194304, .i32⟩
  | .hbm, ⟨31, _⟩ => ⟨S1x4194304, .i1⟩
  | .hbm, ⟨32, _⟩ => ⟨S1x4194304, .f32⟩
  | .hbm, ⟨33, _⟩ => ⟨S1x4194304x1, .f32⟩
  | .hbm, ⟨34, _⟩ => ⟨S1x4194304x3, .f32⟩
  | .hbm, ⟨35, _⟩ => ⟨S24576x512, .f32⟩
  | .hbm, ⟨36, _⟩ => ⟨S24576x512, .f32⟩
  | .hbm, ⟨37, _⟩ => ⟨S24576x512, .f32⟩
  | .hbm, ⟨38, _⟩ => ⟨S24576x512, .f32⟩
  | .hbm, ⟨39, _⟩ => ⟨S8192x512, .f32⟩
  | .hbm, ⟨40, _⟩ => ⟨S8192x512, .f32⟩
  | .hbm, ⟨41, _⟩ => ⟨S1x1, .f32⟩
  | .hbm, ⟨42, _⟩ => ⟨S1x1, .f32⟩
  | .hbm, ⟨43, _⟩ => ⟨S1x1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .i1⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .i1⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .local _ .vmem, ⟨0, _⟩ => ⟨S768x512, .f32⟩
  | .local _ .vmem, ⟨1, _⟩ => ⟨S768x512, .f32⟩
  | .local _ .vmem, ⟨2, _⟩ => ⟨S768x512, .f32⟩
  | .local _ .vmem, ⟨3, _⟩ => ⟨S768x512, .f32⟩
  | .local _ .vmem, ⟨4, _⟩ => ⟨S768x512, .f32⟩
  | .local _ .vmem, ⟨5, _⟩ => ⟨S768x512, .f32⟩
  | .local _ .vmem, ⟨6, _⟩ => ⟨S768x512, .f32⟩
  | .local _ .vmem, ⟨7, _⟩ => ⟨S768x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S1x1, .f32⟩
  | .local _ .vmem, ⟨16, _⟩ => ⟨S1x1, .f32⟩
  | .local _ .vmem, ⟨17, _⟩ => ⟨S1x1, .f32⟩
  | _, _ => ⟨S1x4194304x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_c_4 : Ref sig .tc := ⟨.hbm, 26, rfl⟩
abbrev main_call0_v15 : Ref sig .tc := ⟨.hbm, 27, rfl⟩
abbrev main_v0 : Ref sig .tc := ⟨.hbm, 28, rfl⟩
abbrev main_c : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12_0 : Ref sig .tc := ⟨.hbm, 41, rfl⟩
abbrev main_v12_1 : Ref sig .tc := ⟨.hbm, 42, rfl⟩
abbrev main_v12_2 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst : Ref sig .tc := ⟨.hbm, 47, rfl⟩
abbrev main_v16 : Ref sig .tc := ⟨.hbm, 48, rfl⟩
abbrev main_cst_0 : Ref sig .tc := ⟨.hbm, 49, rfl⟩
abbrev main_v17 : Ref sig .tc := ⟨.hbm, 50, rfl⟩
abbrev main_cst_1 : Ref sig .tc := ⟨.hbm, 51, rfl⟩
abbrev main_v18 : Ref sig .tc := ⟨.hbm, 52, rfl⟩
abbrev main_cst_2 : Ref sig .tc := ⟨.hbm, 53, rfl⟩
abbrev main_v19 : Ref sig .tc := ⟨.hbm, 54, rfl⟩
abbrev main_cst_3 : Ref sig .tc := ⟨.hbm, 55, rfl⟩
abbrev main_v20 : Ref sig .tc := ⟨.hbm, 56, rfl⟩
abbrev main_cst_4 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_cst_5 : Ref sig .tc := ⟨.hbm, 61, rfl⟩
abbrev main_v24 : Ref sig .tc := ⟨.hbm, 62, rfl⟩
abbrev main_cst_6 : Ref sig .tc := ⟨.hbm, 63, rfl⟩
abbrev main_v25 : Ref sig .tc := ⟨.hbm, 64, rfl⟩
abbrev main_v26 : Ref sig .tc := ⟨.hbm, 65, rfl⟩
abbrev main_cst_7 : Ref sig .tc := ⟨.hbm, 66, rfl⟩
abbrev main_v27 : Ref sig .tc := ⟨.hbm, 67, rfl⟩
abbrev main_cst_8 : Ref sig .tc := ⟨.hbm, 68, rfl⟩
abbrev main_v28 : Ref sig .tc := ⟨.hbm, 69, rfl⟩
abbrev main_call1_v0 : Ref sig .tc := ⟨.hbm, 70, rfl⟩
abbrev main_call1_cst : Ref sig .tc := ⟨.hbm, 71, rfl⟩
abbrev main_v29 : Ref sig .tc := ⟨.hbm, 72, rfl⟩
abbrev main_cst_9 : Ref sig .tc := ⟨.hbm, 73, rfl⟩
abbrev main_call2_v0 : Ref sig .tc := ⟨.hbm, 74, rfl⟩
abbrev main_v30 : Ref sig .tc := ⟨.hbm, 75, rfl⟩
abbrev main_call3_v0 : Ref sig .tc := ⟨.hbm, 76, rfl⟩
abbrev main_call3_cst : Ref sig .tc := ⟨.hbm, 77, rfl⟩
abbrev main_v31 : Ref sig .tc := ⟨.hbm, 78, rfl⟩
abbrev main_cst_10 : Ref sig .tc := ⟨.hbm, 79, rfl⟩
abbrev main_call4_v0 : Ref sig .tc := ⟨.hbm, 80, rfl⟩
abbrev main_v32 : Ref sig .tc := ⟨.hbm, 81, rfl⟩
abbrev main_cst_11 : Ref sig .tc := ⟨.hbm, 82, rfl⟩
abbrev main_v33 : Ref sig .tc := ⟨.hbm, 83, rfl⟩
abbrev main_v34 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v49 : BitVec 1 := Scalar.cmpi .eq arg0 c31_i32
  let v50 : BitVec 32 := Scalar.extui v49
  let c0_i32_29 : BitVec 32 := 0#32
  let v51 : BitVec 1 := Scalar.cmpi .ne v50 c0_i32_29
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  bcast_S_S1x4194304 : S_.BroadcastsInDim S1x4194304 (![] : Fin 0 → Fin S1x4194304.rank)
  shapeCasts_S1x4194304_S4194304x1 : S1x4194304.ShapeCasts S4194304x1
  bcast_S_S4194304x1 : S_.BroadcastsInDim S4194304x1 (![] : Fin 0 → Fin S4194304x1.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  reducesTo_S4194304x1_S4194304_d1 : S4194304x1.ReducesTo [1] S4194304
  h_S_ : 0 < S_.numel
  bcast_S4194304_S1x4194304_1 : S4194304.BroadcastsInDim S1x4194304 (![1] : Fin 1 → Fin S1x4194304.rank)
  bcast_S1x4194304_S1x4194304x1_0_1 : S1x4194304.BroadcastsInDim S1x4194304x1 (![0, 1] : Fin 2 → Fin S1x4194304x1.rank)
  bcast_S1x4194304x1_S1x4194304x3_0_1_2 : S1x4194304x1.BroadcastsInDim S1x4194304x3 (![0, 1, 2] : Fin 3 → Fin S1x4194304x3.rank)
  shapeCasts_S1x4194304x3_S24576x512 : S1x4194304x3.ShapeCasts S24576x512
  shapeCasts_S1x4194304_S8192x512 : S1x4194304.ShapeCasts S8192x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S768x512_S768 : S768x512.Reduces [1] S768
  shapeCasts_S768_S768x1 : S768.ShapeCasts S768x1
  reduces_S768x1_S1 : S768x1.Reduces [0] S1
  shapeCasts_S1_S1x1 : S1.ShapeCasts S1x1
  reduces_S256x512_S256 : S256x512.Reduces [1] S256
  shapeCasts_S256_S256x1 : S256.ShapeCasts S256x1
  reduces_S256x1_S1 : S256x1.Reduces [0] S1
  shapeCasts_S1x1_S_ : S1x1.ShapeCasts S_
  gather_S1x1048576_S4194304x1_S1x4194304_0_1_n_n_1_1_11_wf : GatherDims.WF S1x1048576 S4194304x1 S1x4194304 [0] [1] [] [1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S768x512.size a ≤ S24576x512.size a
  hwx0_0 : ∀ i : grid0.Coords, EltTy.bits .f32 = 32 ∨ (Rect.block (s := S24576x512) S768x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S768x512.size a ≤ S24576x512.size a
  hwx0_1 : ∀ i : grid0.Coords, EltTy.bits .f32 = 32 ∨ (Rect.block (s := S24576x512) S768x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S768x512.size a ≤ S24576x512.size a
  hwx0_2 : ∀ i : grid0.Coords, EltTy.bits .f32 = 32 ∨ (Rect.block (s := S24576x512) S768x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S768x512.size a ≤ S24576x512.size a
  hwx0_3 : ∀ i : grid0.Coords, EltTy.bits .f32 = 32 ∨ (Rect.block (s := S24576x512) S768x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S8192x512.size a
  hwx0_4 : ∀ i : grid0.Coords, EltTy.bits .f32 = 32 ∨ (Rect.block (s := S8192x512) S256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S8192x512.size a
  hwx0_5 : ∀ i : grid0.Coords, EltTy.bits .f32 = 32 ∨ (Rect.block (s := S8192x512) S256x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)

variable [Facts₀]

def gather_S1x1048576_S4194304x1_S1x4194304_0_1_n_n_1_1_11 : GatherDims S1x1048576 S4194304x1 S1x4194304 where
  offsetDims := [0]
  collapsedSliceDims := [1]
  operandBatchingDims := []
  startIndicesBatchingDims := []
  startIndexMap := [1]
  indexVectorDim := 1
  sliceSizes := ![1, 1]
  wf := gather_S1x1048576_S4194304x1_S1x4194304_0_1_n_n_1_1_11_wf

abbrev win0_0 : Pipeline.Window sig grid0 :=
  Pipeline.Window.ofSpec (Memref.whole main_v6) S768x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S768x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S768x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S768x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S256x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S256x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S1x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S1x1.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12_2) S1x1.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S1x4194304x3 : Shape := ⟨3, ![1, 4194304, 3]⟩
abbrev S1x4194304 : Shape := ⟨2, ![1, 4194304]⟩
abbrev S1x1048576 : Shape := ⟨2, ![1, 1048576]⟩
abbrev S_ : Shape := ⟨0, ![]⟩
abbrev S4194304x1 : Shape := ⟨2, ![4194304, 1]⟩
abbrev S1 : Shape := ⟨1, ![1]⟩
abbrev S1x1 : Shape := ⟨2, ![1, 1]⟩
abbrev S4194304 : Shape := ⟨1, ![4194304]⟩

abbrev nBuf : Space → Nat
  | .hbm => 96
  | .vmem => 0
  | .smem => 0
  | _ => 0

abbrev bufTy : (tb : Table) → Fin (tcTables nBuf tb) → BufTy
  | .hbm, ⟨0, _⟩ => ⟨S1x4194304x3, .f32⟩
  | .hbm, ⟨1, _⟩ => ⟨S1x4194304x3, .f32⟩
  | .hbm, ⟨2, _⟩ => ⟨S1x4194304x3, .f32⟩
  | .hbm, ⟨3, _⟩ => ⟨S1x4194304, .f32⟩
  | .hbm, ⟨4, _⟩ => ⟨S1x4194304, .i32⟩
  | .hbm, ⟨5, _⟩ => ⟨S1x1048576, .i32⟩
  | .hbm, ⟨6, _⟩ => ⟨S_, .i32⟩
  | .hbm, ⟨7, _⟩ => ⟨S1x4194304, .i32⟩
  | .hbm, ⟨8, _⟩ => ⟨S1x4194304, .i1⟩
  | .hbm, ⟨9, _⟩ => ⟨S_, .i32⟩
  | .hbm, ⟨10, _⟩ => ⟨S1x4194304, .i32⟩
  | .hbm, ⟨11, _⟩ => ⟨S1x4194304, .i32⟩
  | .hbm, ⟨12, _⟩ => ⟨S1x4194304, .i32⟩
  | .hbm, ⟨13, _⟩ => ⟨S4194304x1, .i32⟩
  | .hbm, ⟨14, _⟩ => ⟨S1, .i32⟩
  | .hbm, ⟨15, _⟩ => ⟨S_, .i32⟩
  | .hbm, ⟨16, _⟩ => ⟨S4194304x1, .i32⟩
  | .hbm, ⟨17, _⟩ => ⟨S4194304x1, .i1⟩
  | .hbm, ⟨18, _⟩ => ⟨S1x1, .i32⟩
  | .hbm, ⟨19, _⟩ => ⟨S4194304x1, .i32⟩
  | .hbm, ⟨20, _⟩ => ⟨S4194304x1, .i1⟩
  | .hbm, ⟨21, _⟩ => ⟨S4194304x1, .i1⟩
  | .hbm, ⟨22, _⟩ => ⟨S_, .i1⟩
  | .hbm, ⟨23, _⟩ => ⟨S4194304, .i1⟩
  | .hbm, ⟨24, _⟩ => ⟨S1x4194304, .i32⟩
  | .hbm, ⟨25, _⟩ => ⟨S1x4194304, .i1⟩
  | .hbm, ⟨26, _⟩ => ⟨S_, .i32⟩
  | .hbm, ⟨27, _⟩ => ⟨S1x4194304, .i32⟩
  | .hbm, ⟨28, _⟩ => ⟨S1x4194304, .i32⟩
  | .hbm, ⟨29, _⟩ => ⟨S_, .i32⟩
  | .hbm, ⟨30, _⟩ => ⟨S1x4194304, .i32⟩
  | .hbm, ⟨31, _⟩ => ⟨S1x4194304, .i1⟩
  | .hbm, ⟨32, _⟩ => ⟨S1x4194304, .f32⟩
  | .hbm, ⟨33, _⟩ => ⟨S1x4194304x3, .f32⟩
  | .hbm, ⟨34, _⟩ => ⟨S1x4194304x3, .f32⟩
  | .hbm, ⟨35, _⟩ => ⟨S_, .f32⟩
  | .hbm, ⟨36, _⟩ => ⟨S1x4194304, .f32⟩
  | .hbm, ⟨37, _⟩ => ⟨S_, .f32⟩
  | .hbm, ⟨38, _⟩ => ⟨S1x4194304, .f32⟩
  | .hbm, ⟨39, _⟩ => ⟨S1x4194304, .f32⟩
  | .hbm, ⟨40, _⟩ => ⟨S_, .f32⟩
  | .hbm, ⟨41, _⟩ => ⟨S1x4194304, .f32⟩
  | .hbm, ⟨42, _⟩ => ⟨S1x4194304, .f32⟩
  | .hbm, ⟨43, _⟩ => ⟨S1x4194304x3, .f32⟩
  | .hbm, ⟨44, _⟩ => ⟨S1x4194304x3, .f32⟩
  | .hbm, ⟨45, _⟩ => ⟨S_, .f32⟩
  | .hbm, ⟨46, _⟩ => ⟨S1x4194304, .f32⟩
  | .hbm, ⟨47, _⟩ => ⟨S1x4194304, .f32⟩
  | .hbm, ⟨48, _⟩ => ⟨S_, .f32⟩
  | .hbm, ⟨49, _⟩ => ⟨S1x4194304, .f32⟩
  | .hbm, ⟨50, _⟩ => ⟨S1x4194304, .f32⟩
  | .hbm, ⟨51, _⟩ => ⟨S1x4194304, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .i1⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .i1⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S1x4194304, .f32⟩
  | .hbm, ⟨87, _⟩ => ⟨S1x4194304, .f32⟩
  | .hbm, ⟨88, _⟩ => ⟨S_, .f32⟩
  | .hbm, ⟨89, _⟩ => ⟨S1x4194304, .f32⟩
  | .hbm, ⟨90, _⟩ => ⟨S1x4194304, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S1x4194304x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_c_4 : Ref sig .tc := ⟨.hbm, 26, rfl⟩
abbrev main_call0_v15 : Ref sig .tc := ⟨.hbm, 27, rfl⟩
abbrev main_v0 : Ref sig .tc := ⟨.hbm, 28, rfl⟩
abbrev main_c : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_cst : Ref sig .tc := ⟨.hbm, 35, rfl⟩
abbrev main_v6 : Ref sig .tc := ⟨.hbm, 36, rfl⟩
abbrev main_cst_0 : Ref sig .tc := ⟨.hbm, 37, rfl⟩
abbrev main_v7 : Ref sig .tc := ⟨.hbm, 38, rfl⟩
abbrev main_v8 : Ref sig .tc := ⟨.hbm, 39, rfl⟩
abbrev main_cst_1 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_2 : Ref sig .tc := ⟨.hbm, 45, rfl⟩
abbrev main_v13 : Ref sig .tc := ⟨.hbm, 46, rfl⟩
abbrev main_v14 : Ref sig .tc := ⟨.hbm, 47, rfl⟩
abbrev main_cst_3 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_4 : Ref sig .tc := ⟨.hbm, 52, rfl⟩
abbrev main_v18 : Ref sig .tc := ⟨.hbm, 53, rfl⟩
abbrev main_cst_5 : Ref sig .tc := ⟨.hbm, 54, rfl⟩
abbrev main_v19 : Ref sig .tc := ⟨.hbm, 55, rfl⟩
abbrev main_cst_6 : Ref sig .tc := ⟨.hbm, 56, rfl⟩
abbrev main_v20 : Ref sig .tc := ⟨.hbm, 57, rfl⟩
abbrev main_cst_7 : Ref sig .tc := ⟨.hbm, 58, rfl⟩
abbrev main_v21 : Ref sig .tc := ⟨.hbm, 59, rfl⟩
abbrev main_v22 : Ref sig .tc := ⟨.hbm, 60, rfl⟩
abbrev main_cst_8 : Ref sig .tc := ⟨.hbm, 61, rfl⟩
abbrev main_v23 : Ref sig .tc := ⟨.hbm, 62, rfl⟩
abbrev main_cst_9 : Ref sig .tc := ⟨.hbm, 63, rfl⟩
abbrev main_v24 : Ref sig .tc := ⟨.hbm, 64, rfl⟩
abbrev main_cst_10 : Ref sig .tc := ⟨.hbm, 65, rfl⟩
abbrev main_v25 : Ref sig .tc := ⟨.hbm, 66, rfl⟩
abbrev main_cst_11 : Ref sig .tc := ⟨.hbm, 67, rfl⟩
abbrev main_v26 : Ref sig .tc := ⟨.hbm, 68, rfl⟩
abbrev main_v27 : Ref sig .tc := ⟨.hbm, 69, rfl⟩
abbrev main_cst_12 : Ref sig .tc := ⟨.hbm, 70, rfl⟩
abbrev main_v28 : Ref sig .tc := ⟨.hbm, 71, rfl⟩
abbrev main_cst_13 : Ref sig .tc := ⟨.hbm, 72, rfl⟩
abbrev main_v29 : Ref sig .tc := ⟨.hbm, 73, rfl⟩
abbrev main_call1_v0 : Ref sig .tc := ⟨.hbm, 74, rfl⟩
abbrev main_call1_cst : Ref sig .tc := ⟨.hbm, 75, rfl⟩
abbrev main_v30 : Ref sig .tc := ⟨.hbm, 76, rfl⟩
abbrev main_cst_14 : Ref sig .tc := ⟨.hbm, 77, rfl⟩
abbrev main_call2_v0 : Ref sig .tc := ⟨.hbm, 78, rfl⟩
abbrev main_v31 : Ref sig .tc := ⟨.hbm, 79, rfl⟩
abbrev main_call3_v0 : Ref sig .tc := ⟨.hbm, 80, rfl⟩
abbrev main_call3_cst : Ref sig .tc := ⟨.hbm, 81, rfl⟩
abbrev main_v32 : Ref sig .tc := ⟨.hbm, 82, rfl⟩
abbrev main_cst_15 : Ref sig .tc := ⟨.hbm, 83, rfl⟩
abbrev main_call4_v0 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_cst_16 : Ref sig .tc := ⟨.hbm, 88, rfl⟩
abbrev main_v36 : Ref sig .tc := ⟨.hbm, 89, rfl⟩
abbrev main_v37 : Ref sig .tc := ⟨.hbm, 90, rfl⟩
abbrev main_cst_17 : Ref sig .tc := ⟨.hbm, 91, rfl⟩
abbrev main_v38 : Ref sig .tc := ⟨.hbm, 92, rfl⟩
abbrev main_cst_18 : Ref sig .tc := ⟨.hbm, 93, rfl⟩
abbrev main_v39 : Ref sig .tc := ⟨.hbm, 94, rfl⟩
abbrev main_v40 : Ref sig .tc := ⟨.hbm, 95, rfl⟩

abbrev nD : Nat := 1
abbrev τ : Topo := Topo.v7x

variable {F : FTy → Type} [FloatOps F]

class Facts₀ : Prop where
  bcast_S_S1x4194304 : S_.BroadcastsInDim S1x4194304 (![] : Fin 0 → Fin S1x4194304.rank)
  shapeCasts_S1x4194304_S4194304x1 : S1x4194304.ShapeCasts S4194304x1
  bcast_S_S4194304x1 : S_.BroadcastsInDim S4194304x1 (![] : Fin 0 → Fin S4194304x1.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  reducesTo_S4194304x1_S4194304_d1 : S4194304x1.ReducesTo [1] S4194304
  h_S_ : 0 < S_.numel
  bcast_S4194304_S1x4194304_1 : S4194304.BroadcastsInDim S1x4194304 (![1] : Fin 1 → Fin S1x4194304.rank)
  reducesTo_S1x4194304x3_S1x4194304_d2 : S1x4194304x3.ReducesTo [2] S1x4194304
  reducesTo_S1x4194304_S_d0_1 : S1x4194304.ReducesTo [0, 1] S_
  gather_S1x1048576_S4194304x1_S1x4194304_0_1_n_n_1_1_11_wf : GatherDims.WF S1x1048576 S4194304x1 S1x4194304 [0] [1] [] [1] [] 1 ![1, 1]

variable [Facts₀]

def gather_S1x1048576_S4194304x1_S1x4194304_0_1_n_n_1_1_11 : GatherDims S1x1048576 S4194304x1 S1x4194304 where
  offsetDims := [0]
  collapsedSliceDims := [1]
  operandBatchingDims := []
  startIndicesBatchingDims := []
  startIndexMap := [1]
  indexVectorDim := 1
  sliceSizes := ![1, 1]
  wf := gather_S1x1048576_S4194304x1_S1x4194304_0_1_n_n_1_1_11_wf

class Facts : Prop extends Facts₀ where

variable [Facts]
-- ==== Proof.RefRunH.lean ====
/-
  The reference program's run at the exact values: every weakly fair execution terminates with each of its five
  results at its stage — the value its operation writes, as a function of the argument arrays — and the arguments
  unchanged. The 90 host operations are read in stretches, so that the gathered ray mask, which three of the results
  share, is read once.
-/
import proofs.«135916_j29789893165394_2_alg».proof.Proof.RefRunP
import proofs.«135916_j29789893165394_2_alg».proof.Proof.RefReadP

set_option maxRecDepth 16384

noncomputable section

namespace Cert.ReferenceIdeal.RunH

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

private theorem ofBuf_toBuf {Val : EltTy → Type} {T : BufTy} (x : TRef sig T) (v : T.Contents Val) : x.ofBuf (x.toBuf v) = v := by
  simp only [TRef.ofBuf, TRef.toBuf, cast_cast, cast_eq]

private theorem after_append {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => simp only [List.cons_append, StableHlo.after_cons, ih]

/-- The pixel numbers as gather indices: negative ones wrapped once, laid as a column. -/
private def idxK (x4 : (⟨S1x4194304, .i32⟩ : BufTy).Contents (Elt Ideal)) : (⟨S4194304x1, .i32⟩ : BufTy).Contents (Elt Ideal) :=
  shapeCast _ (select (cmpi .slt x4 (broadcastInDim S1x4194304 ![] bcast_S_S1x4194304 (constantI S_ 32 0#32))) (addi x4 (broadcastInDim S1x4194304 ![] bcast_S_S1x4194304 (constantI S_ 32 1048576#32))) x4) shapeCasts_S1x4194304_S4194304x1

/-- The gathered instance numbers, the fill value where the index is out of range. -/
private def takeFrom (i5 : (⟨S4194304x1, .i32⟩ : BufTy).Contents (Elt Ideal)) (x5 : (⟨S1x1048576, .i32⟩ : BufTy).Contents (Elt Ideal)) : (⟨S1x4194304, .i32⟩ : BufTy).Contents (Elt Ideal) :=
  select (broadcastInDim S1x4194304 ![1] bcast_S4194304_S1x4194304_1 (Host.reduce IntOp.andi (andi (cmpi .sge i5 (broadcastInDim S4194304x1 ![] bcast_S_S4194304x1 (constantI S_ 32 0#32))) (cmpi .sle i5 (broadcastInDim S4194304x1 ![0, 1] bcast_S1x1_S4194304x1_0_1 (broadcastInDim S1x1 ![1] bcast_S1_S1x1_1 (constantI S1 32 1048575#32))))) (constantI S_ 1 1#1) reducesTo_S4194304x1_S4194304_d1 h_S_)) (Host.gather gather_S1x1048576_S4194304x1_S1x4194304_0_1_n_n_1_1_11 x5 i5) (broadcastInDim S1x4194304 ![] bcast_S_S1x4194304 (constantI S_ 32 2147483648#32))

/-- 1.0 where the instance number is 1, else 0.0. -/
private def maskFrom (v0 : (⟨S1x4194304, .i32⟩ : BufTy).Contents (Elt Ideal)) : (⟨S1x4194304, .f32⟩ : BufTy).Contents (Elt Ideal) :=
  uitofp (F := Ideal) .f32 (cmpi .eq v0 (broadcastInDim S1x4194304 ![] bcast_S_S1x4194304 (constantI S_ 32 1#32)))

/-- The mask stage is the three steps composed. -/
private theorem val3_eq (x4 : (⟨S1x4194304, .i32⟩ : BufTy).Contents (Elt Ideal)) (x5 : (⟨S1x1048576, .i32⟩ : BufTy).Contents (Elt Ideal)) : val_main_v3 (F := Ideal) x4 x5 = maskFrom (takeFrom (idxK x4) x5) := by
  simp only [val_main_v3, val_main_v2, val_main_v1, val_main_c, val_main_v0, val_main_call0_v14, val_main_call0_v13, val_main_call0_v15, val_main_call0_c_4, val_main_call0_v12, val_main_call0_c_3, val_main_call0_v11, val_main_call0_v7, val_main_call0_v10, val_main_call0_v9, val_main_call0_v8, val_main_call0_c_1, val_main_call0_v6, val_main_call0_c_2, val_main_call0_v5, val_main_call0_v4, val_main_call0_v1, val_main_call0_v3, val_main_call0_v0, val_main_call0_v2, val_main_call0_c, val_main_call0_c_0, maskFrom, takeFrom, idxK]

/-- The operations up to the mask, in three stretches. -/
private theorem p_split : (ops : List (HloOp τ sig (Elt Ideal))).take 27 = ops.take 8 ++ ((ops.drop 8).take 15 ++ (ops.drop 23).take 4) := by
  simp only [ops, List.take_succ_cons, List.take_zero, List.drop_succ_cons, List.drop_zero, List.cons_append, List.nil_append]

private theorem ops_split : (ops : List (HloOp τ sig (Elt Ideal))) = ops.take 27 ++ ops.drop 27 := (List.take_append_drop 27 _).symm

private theorem s1_v5 (W : Valuation τ sig (Elt Ideal)) :
    StableHlo.after ((ops : List (HloOp τ sig (Elt Ideal))).take 8) W (Proc.devRef .tc main_call0_v5) = idxK (W (Proc.devRef .tc main_arg4)) := by
  simp only [ops, List.take_succ_cons, List.take_zero, List.drop_succ_cons, List.drop_zero]
  after_results_simp
  rfl

private theorem s1_arg5 (W : Valuation τ sig (Elt Ideal)) :
    StableHlo.after ((ops : List (HloOp τ sig (Elt Ideal))).take 8) W (Proc.devRef .tc main_arg5) = W (Proc.devRef .tc main_arg5) := by
  simp only [ops, List.take_succ_cons, List.take_zero, List.drop_succ_cons, List.drop_zero]
  after_results_simp

private theorem s2_v0 (W : Valuation τ sig (Elt Ideal)) :
    StableHlo.after (((ops : List (HloOp τ sig (Elt Ideal))).drop 8).take 15) W (Proc.devRef .tc main_v0)
      = takeFrom (W (Proc.devRef .tc main_call0_v5)) (W (Proc.devRef .tc main_arg5)) := by
  simp only [ops, List.take_succ_cons, List.take_zero, List.drop_succ_cons, List.drop_zero]
  after_results_simp
  simp only [ofBuf_toBuf]
  refine (cast_eq _ _).trans ?_
  rfl

private theorem s3_v3 (W : Valuation τ sig (Elt Ideal)) :
    StableHlo.after (((ops : List (HloOp τ sig (Elt Ideal))).drop 23).take 4) W (Proc.devRef .tc main_v3) = maskFrom (W (Proc.devRef .tc main_v0)) := by
  simp only [ops, List.take_succ_cons, List.take_zero, List.drop_succ_cons, List.drop_zero]
  after_results_simp
  rfl

/-- The mask buffer after the first 27 operations. -/
private theorem p_v3 (V : Valuation τ sig (Elt Ideal)) :
    StableHlo.after ((ops : List (HloOp τ sig (Elt Ideal))).take 27) V (Proc.devRef .tc main_v3) = val_main_v3 (F := Ideal) (V (Proc.devRef .tc main_arg4)) (V (Proc.devRef .tc main_arg5)) := by
  rw [p_split, after_append, after_append, s3_v3, s2_v0, s1_v5, s1_arg5, val3_eq]

private theorem p_arg0 (V : Valuation τ sig (Elt Ideal)) :
    StableHlo.after ((ops : List (HloOp τ sig (Elt Ideal))).take 27) V (Proc.devRef .tc main_arg0) = V (Proc.devRef .tc main_arg0) := by
  simp only [ops, List.take_succ_cons, List.take_zero, List.drop_succ_cons, List.drop_zero]
  after_results_simp

private theorem p_arg1 (V : Valuation τ sig (Elt Ideal)) :
    StableHlo.after ((ops : List (HloOp τ sig (Elt Ideal))).take 27) V (Proc.devRef .tc main_arg1) = V (Proc.devRef .tc main_arg1) := by
  simp only [ops, List.take_succ_cons, List.take_zero, List.drop_succ_cons, List.drop_zero]
  after_results_simp

private theorem p_arg2 (V : Valuation τ sig (Elt Ideal)) :
    StableHlo.after ((ops : List (HloOp τ sig (Elt Ideal))).take 27) V (Proc.devRef .tc main_arg2) = V (Proc.devRef .tc main_arg2) := by
  simp only [ops, List.take_succ_cons, List.take_zero, List.drop_succ_cons, List.drop_zero]
  after_results_simp

private theorem p_arg3 (V : Valuation τ sig (Elt Ideal)) :
    StableHlo.after ((ops : List (HloOp τ sig (Elt Ideal))).take 27) V (Proc.devRef .tc main_arg3) = V (Proc.devRef .tc main_arg3) := by
  simp only [ops, List.take_succ_cons, List.take_zero, List.drop_succ_cons, List.drop_zero]
  after_results_simp

private theorem q_v19 (W : Valuation τ sig (Elt Ideal)) (x0 x1 x2 : (⟨S1x4194304x3, .f32⟩ : BufTy).Contents (Elt Ideal)) (x3 : (⟨S1x4194304, .f32⟩ : BufTy).Contents (Elt Ideal)) (x4 : (⟨S1x4194304, .i32⟩ : BufTy).Contents (Elt Ideal)) (x5 : (⟨S1x1048576, .i32⟩ : BufTy).Contents (Elt Ideal))
    (h0 : W (Proc.devRef .tc main_arg0) = x0) (h1 : W (Proc.devRef .tc main_arg1) = x1) (h2 : W (Proc.devRef .tc main_arg2) = x2) (h3 : W (Proc.devRef .tc main_arg3) = x3)
    (hm : W (Proc.devRef .tc main_v3) = val_main_v3 (F := Ideal) x4 x5) :
    StableHlo.after ((ops : List (HloOp τ sig (Elt Ideal))).drop 27) W (Proc.devRef .tc main_v19) = val_main_v19 (F := Ideal) x0 x1 x2 x4 x5 := by
  simp only [ops, List.take_succ_cons, List.take_zero, List.drop_succ_cons, List.drop_zero]
  after_results_simp
  rw [h0, h1, h2, hm]
  rfl

private theorem q_v39 (W : Valuation τ sig (Elt Ideal)) (x0 x1 x2 : (⟨S1x4194304x3, .f32⟩ : BufTy).Contents (Elt Ideal)) (x3 : (⟨S1x4194304, .f32⟩ : BufTy).Contents (Elt Ideal)) (x4 : (⟨S1x4194304, .i32⟩ : BufTy).Contents (Elt Ideal)) (x5 : (⟨S1x1048576, .i32⟩ : BufTy).Contents (Elt Ideal))
    (h0 : W (Proc.devRef .tc main_arg0) = x0) (h1 : W (Proc.devRef .tc main_arg1) = x1) (h2 : W (Proc.devRef .tc main_arg2) = x2) (h3 : W (Proc.devRef .tc main_arg3) = x3)
    (hm : W (Proc.devRef .tc main_v3) = val_main_v3 (F := Ideal) x4 x5) :
    StableHlo.after ((ops : List (HloOp τ sig (Elt Ideal))).drop 27) W (Proc.devRef .tc main_v39) = val_main_v39 (F := Ideal) x3 x4 x5 := by
  simp only [ops, List.take_succ_cons, List.take_zero, List.drop_succ_cons, List.drop_zero]
  after_results_simp
  rw [h3, hm]
  rfl

private theorem q_v40 (W : Valuation τ sig (Elt Ideal)) (x0 x1 x2 : (⟨S1x4194304x3, .f32⟩ : BufTy).Contents (Elt Ideal)) (x3 : (⟨S1x4194304, .f32⟩ : BufTy).Contents (Elt Ideal)) (x4 : (⟨S1x4194304, .i32⟩ : BufTy).Contents (Elt Ideal)) (x5 : (⟨S1x1048576, .i32⟩ : BufTy).Contents (Elt Ideal))
    (h0 : W (Proc.devRef .tc main_arg0) = x0) (h1 : W (Proc.devRef .tc main_arg1) = x1) (h2 : W (Proc.devRef .tc main_arg2) = x2) (h3 : W (Proc.devRef .tc main_arg3) = x3)
    (hm : W (Proc.devRef .tc main_v3) = val_main_v3 (F := Ideal) x4 x5) :
    StableHlo.after ((ops : List (HloOp τ sig (Elt Ideal))).drop 27) W (Proc.devRef .tc main_v40) = val_main_v40 (F := Ideal) x0 x1 x2 x3 x4 x5 := by
  simp only [ops, List.take_succ_cons, List.take_zero, List.drop_succ_cons, List.drop_zero]
  after_results_simp
  rw [h0, h1, h2, h3, hm]
  rfl

private theorem q_v33 (W : Valuation τ sig (Elt Ideal)) (x0 x1 x2 : (⟨S1x4194304x3, .f32⟩ : BufTy).Contents (Elt Ideal)) (x3 : (⟨S1x4194304, .f32⟩ : BufTy).Contents (Elt Ideal)) (x4 : (⟨S1x4194304, .i32⟩ : BufTy).Contents (Elt Ideal)) (x5 : (⟨S1x1048576, .i32⟩ : BufTy).Contents (Elt Ideal))
    (h0 : W (Proc.devRef .tc main_arg0) = x0) (h1 : W (Proc.devRef .tc main_arg1) = x1) (h2 : W (Proc.devRef .tc main_arg2) = x2) (h3 : W (Proc.devRef .tc main_arg3) = x3)
    (hm : W (Proc.devRef .tc main_v3) = val_main_v3 (F := Ideal) x4 x5) :
    StableHlo.after ((ops : List (HloOp τ sig (Elt Ideal))).drop 27) W (Proc.devRef .tc main_v33) = val_main_v33 (F := Ideal) x0 x2 x4 x5 := by
  simp only [ops, List.take_succ_cons, List.take_zero, List.drop_succ_cons, List.drop_zero]
  after_results_simp
  simp only [ofBuf_toBuf]
  rw [h0, h2, hm]
  rfl

private theorem res_v40 (V : Valuation τ sig (Elt Ideal)) :
    StableHlo.after (ops : List (HloOp τ sig (Elt Ideal))) V (Proc.devRef .tc main_v40) = val_main_v40 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_split, after_append]
  exact q_v40 _ _ _ _ _ _ _ (p_arg0 V) (p_arg1 V) (p_arg2 V) (p_arg3 V) (p_v3 V)

private theorem res_v19 (V : Valuation τ sig (Elt Ideal)) :
    StableHlo.after (ops : List (HloOp τ sig (Elt Ideal))) V (Proc.devRef .tc main_v19) = val_main_v19 (F := Ideal) (V (Proc.devRef .tc main_arg0)) (V (Proc.devRef .tc main_arg1)) (V (Proc.devRef .tc main_arg2)) (V (Proc.devRef .tc main_arg4)) (V (Proc.devRef .tc main_arg5)) := by
  rw [ops_split, after_append]
  exact q_v19 _ _ _ _ _ _ _ (p_arg0 V) (p_arg1 V) (p_arg2 V) (p_arg3 V) (p_v3 V)

private theorem res_v39 (V : Valuation τ sig (Elt Ideal)) :
    StableHlo.after (ops : List (HloOp τ sig (Elt Ideal))) V (Proc.devRef .tc main_v39) = val_main_v39 (F := Ideal) (V (Proc.devRef .tc main_arg3)) (V (Proc.devRef .tc main_arg4)) (V (Proc.devRef .tc main_arg5)) := by
  rw [ops_split, after_append]
  exact q_v39 _ _ _ _ _ _ _ (p_arg0 V) (p_arg1 V) (p_arg2 V) (p_arg3 V) (p_v3 V)

private theorem res_v33 (V : Valuation τ sig (Elt Ideal)) :
    StableHlo.after (ops : List (HloOp τ sig (Elt Ideal))) V (Proc.devRef .tc main_v33) = val_main_v33 (F := Ideal) (V (Proc.devRef .tc main_arg0)) (V (Proc.devRef .tc main_arg2)) (V (Proc.devRef .tc main_arg4)) (V (Proc.devRef .tc main_arg5)) := by
  rw [ops_split, after_append]
  exact q_v33 _ _ _ _ _ _ _ (p_arg0 V) (p_arg1 V) (p_arg2 V) (p_arg3 V) (p_v3 V)

private theorem res_v31 (V : Valuation τ sig (Elt Ideal)) :
    StableHlo.after (ops : List (HloOp τ sig (Elt Ideal))) V (Proc.devRef .tc main_v31) = val_main_v31 (F := Ideal) (V (Proc.devRef .tc main_arg0)) (V (Proc.devRef .tc main_arg1)) := by
  after_results_simp <;> rfl

private theorem res_arg0 (V : Valuation τ sig (Elt Ideal)) :
    StableHlo.after (ops : List (HloOp τ sig (Elt Ideal))) V (Proc.devRef .tc main_arg0) = V (Proc.devRef .tc main_arg0) := by
  after_results_simp

private theorem res_arg1 (V : Valuation τ sig (Elt Ideal)) :
    StableHlo.after (ops : List (HloOp τ sig (Elt Ideal))) V (Proc.devRef .tc main_arg1) = V (Proc.devRef .tc main_arg1) := by
  after_results_simp

private theorem res_arg2 (V : Valuation τ sig (Elt Ideal)) :
    StableHlo.after (ops : List (HloOp τ sig (Elt Ideal))) V (Proc.devRef .tc main_arg2) = V (Proc.devRef .tc main_arg2) := by
  after_results_simp

private theorem res_arg3 (V : Valuation τ sig (Elt Ideal)) :
    StableHlo.after (ops : List (HloOp τ sig (Elt Ideal))) V (Proc.devRef .tc main_arg3) = V (Proc.devRef .tc main_arg3) := by
  after_results_simp

private theorem res_arg4 (V : Valuation τ sig (Elt Ideal)) :
    StableHlo.after (ops : List (HloOp τ sig (Elt Ideal))) V (Proc.devRef .tc main_arg4) = V (Proc.devRef .tc main_arg4) := by
  after_results_simp

private theorem res_arg5 (V : Valuation τ sig (Elt Ideal)) :
    StableHlo.after (ops : List (HloOp τ sig (Elt Ideal))) V (Proc.devRef .tc main_arg5) = V (Proc.devRef .tc main_arg5) := by
  after_results_simp

/-- The run, each result at its stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v19) = val_main_v19 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v39) = val_main_v39 (F := Ideal) (m ((c.tc : Thread nD τ).loc main_arg3)) (m ((c.tc : Thread nD τ).loc main_arg4)) (m ((c.tc : Thread nD τ).loc main_arg5))
      ∧ r.2.mem ((c.tc : Thread nD τ).loc main_v31) = val_main_v31 (F := Ideal) (m ((c.tc : Thread nD τ).loc main_arg0)) (m ((c.tc : Thread nD τ).loc main_arg1))
      ∧ r.2.mem ((c.tc : Thread nD τ).loc main_v33) = val_main_v33 (F := Ideal) (m ((c.tc : Thread nD τ).loc main_arg0)) (m ((c.tc : Thread nD τ).loc main_arg2)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  exact (θ_run defs _ _).mono (fun _ h c => ⟨(h c main_v40).trans (res_v40 _), (h c main_v19).trans (res_v19 _), (h c main_v39).trans (res_v39 _),
      (h c main_v31).trans (res_v31 _), (h c main_v33).trans (res_v33 _),
      (h c main_arg0).trans (res_arg0 _), (h c main_arg1).trans (res_arg1 _), (h c main_arg2).trans (res_arg2 _),
      (h c main_arg3).trans (res_arg3 _), (h c main_arg4).trans (res_arg4 _), (h c main_arg5).trans (res_arg5 _)⟩)
    (run_seq scopedRefs_eq scopedSems_eq defs main (fun _ => ops) main_eq (fun _ => ops_sub) m ρ)

end Cert.ReferenceIdeal.RunH

end
-- ==== Proof.LossSpec.lean ====
/-
  The quantities both programs compute, stated once over plain index types.

  Three sums of squared differences over all rays: the scene colour error, the object colour error weighted by a
  0/1 ray mask, and the opacity error against the mask. Each is divided by the number of rays; the results returned
  are the total loss, the colour loss, the opacity loss and two peak signal-to-noise figures (minus ten times the
  decimal logarithm of a mean, with an infinite value replaced by zero).

  The slab forms below sum over the lane-dense re-layings [24576, 512] and [8192, 512] of the [1, 4194304, 3] and
  [1, 4194304] arrays; a re-laying keeps the row-major position of every element, so each total is the total over
  the original index set.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LossSpec

open Idealize.ShloMosaic

/-- The colour arrays: one batch, 4194304 rays, three channels. -/
abbrev Rgb : Shape := ⟨3, ![1, 4194304, 3]⟩
/-- One value per ray. -/
abbrev Ray : Shape := ⟨2, ![1, 4194304]⟩
/-- A colour array re-laid as rows of 512 lanes. -/
abbrev SlabRgb : Shape := ⟨2, ![24576, 512]⟩
/-- A per-ray array re-laid as rows of 512 lanes. -/
abbrev SlabRay : Shape := ⟨2, ![8192, 512]⟩
/-- The scalar shape. -/
abbrev Sc : Shape := ⟨0, ![]⟩

/-- The squared difference of two extended reals. -/
def sq (a b : EReal) : EReal := (a - b) * (a - b)

/-- A squared difference weighted by `w`. -/
def wsq (w a b : EReal) : EReal := w * sq a b

/-- The scene colour error summed over a slab. -/
def sumScn (A B : SlabRgb.Idx → EReal) : EReal := ∑ i, sq (A i) (B i)
/-- The object colour error, each term weighted by `W`, summed over a slab. -/
def sumObj (A C W : SlabRgb.Idx → EReal) : EReal := ∑ i, W i * sq (A i) (C i)
/-- The opacity error against the weights `W`, summed over a slab. -/
def sumOp (O W : SlabRay.Idx → EReal) : EReal := ∑ i, sq (W i) (O i)

/-- The single-precision words of 0, 1 and 2^22 (the number of rays), at their exact values. -/
abbrev wZero : EReal := Ideal.ofBits .f32 0x00000000#32
abbrev wOne : EReal := Ideal.ofBits .f32 0x3F800000#32
abbrev wN : EReal := Ideal.ofBits .f32 0x4A800000#32

/-- Ray `j`'s channel `k` as an index of a colour array. -/
abbrev rayCh (j : Ray.Idx) (k : Fin 3) : Rgb.Idx :=
  ValueIdx.ix3 (⟨(j 0).val, (j 0).isLt⟩ : Fin 1) (⟨(j 1).val, (j 1).isLt⟩ : Fin 4194304) k

/-- The sum of `f` over the 768 rows, 512 lanes each, of block `t` of a colour slab (32 blocks tile it); zero past
    the last block. -/
def blkRgb (f : SlabRgb.Idx → EReal) (t : ℕ) : EReal :=
  if h : t < 32 then ∑ p : Fin 768, ∑ q : Fin 512, f (ValueIdx.ix2 (⟨t * 768 + p.val, by have := p.isLt; omega⟩ : Fin 24576) q) else 0
/-- The sum of `f` over the 256 rows, 512 lanes each, of block `t` of a per-ray slab; zero past the last block. -/
def blkRay (f : SlabRay.Idx → EReal) (t : ℕ) : EReal :=
  if h : t < 32 then ∑ p : Fin 256, ∑ q : Fin 512, f (ValueIdx.ix2 (⟨t * 256 + p.val, by have := p.isLt; omega⟩ : Fin 8192) q) else 0

/-- A scalar array at the exact values. -/
abbrev Scal := FVec Ideal Sc .f32
/-- The scalar array holding `x`. -/
def scal (x : EReal) : Scal := fun _ => x
/-- Division by the number of rays, 4194304 = 2^22. -/
def meanArr (s : Scal) : Scal := Host.divf (F := Ideal) s (constant (F := Ideal) Sc .f32 0x4A800000#32)
/-- Multiplication by the weight 1.0. -/
def oneMul (x : Scal) : Scal := mulf (F := Ideal) (constant (F := Ideal) Sc .f32 0x3F800000#32) x
/-- Minus ten times the decimal logarithm (the natural logarithm times the single-precision value of 1/ln 10), with an
    infinite result replaced by zero. -/
def psnrArr (x : Scal) : Scal :=
  select (cmpf (F := Ideal) .oeq (Host.absf (F := Ideal) (mulf (F := Ideal) (constant (F := Ideal) Sc .f32 0xC1200000#32) (mulf (F := Ideal) (Host.log (F := Ideal) x) (constant (F := Ideal) Sc .f32 0x3EDE5BD9#32)))) (constant (F := Ideal) Sc .f32 0x7F800000#32))
    (id (constant (F := Ideal) Sc .f32 0x00000000#32))
    (mulf (F := Ideal) (constant (F := Ideal) Sc .f32 0xC1200000#32) (mulf (F := Ideal) (Host.log (F := Ideal) x) (constant (F := Ideal) Sc .f32 0x3EDE5BD9#32)))

/-- The colour loss from the two colour sums. -/
def kColor (s1 s2 : Scal) : Scal := addf (F := Ideal) (oneMul (oneMul (meanArr s1))) (oneMul (meanArr s2))
/-- The opacity loss from the opacity sum. -/
def kOpac (s3 : Scal) : Scal := oneMul (meanArr s3)
/-- The total loss. -/
def kLoss (s1 s2 s3 : Scal) : Scal := addf (F := Ideal) (kColor s1 s2) (kOpac s3)
/-- A signal-to-noise figure from one colour sum. -/
def kPsnr (s : Scal) : Scal := psnrArr (oneMul (meanArr s))

end Cert.LossSpec

end
-- ==== Proof.KPieces.lean ====
/-
  What one grid point leaves in the three running totals, read at the exact values.

  At every point the body adds to each 1×1 accumulator the sum, over the rows and lanes of the point's blocks, of a
  squared difference: scene colour error, mask-weighted object colour error, opacity error. At the first point the
  accumulators are first cleared, so they end at the block's sum alone; at every later point they end at what the
  point before left plus the block's sum; at the last point the three results are copies of the accumulators.
-/
import proofs.«135916_j29789893165394_2_alg».proof.Proof.Gen.KernelIdeal.Frame
import proofs.«135916_j29789893165394_2_alg».proof.Proof.LossSpec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

set_option maxRecDepth 16384

noncomputable section

open scoped BigOperators

namespace Cert.KernelIdeal.KPieces

open Idealize.ShloMosaic Idealize.ShloMosaic.TcCoe Idealize.SL.Sem Idealize.ShloMosaic.ValueIdx
open Cert.KernelIdeal Cert.KernelIdeal.Gen Cert.LossSpec

section Generic
variable {F : FTy → Type} [FloatOps F]

/-- The accumulators' one-element rectangle starts at the origin. -/
private theorem hz : (![0, 0] : Fin 2 → Nat) = fun _ => 0 := funext fun a => by fin_cases a <;> rfl

/-- At the first point accumulator 0 is cleared and then receives the block's sum of (x0 − x1)²: its two stores leave the
    update applied to the zero word. -/
private theorem piece_A_0 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : cond0_0 i) (hc1 : ¬cond0_1 i)
    (x0 : Vec F S768x512 .f32) (x1 : Vec F S768x512 .f32) (x2 : Vec F S768x512 .f32) (x3 : Vec F S768x512 .f32) (x4 : Vec F S256x512 .f32) (x5 : Vec F S256x512 .f32) :
    sout0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = k0_pay1 (k0_pay10 x0 x1 k0_pay4) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg1.read_unread, harg2.read_unread, View.ld_unit_zero (S := S768x512) hz]

/-- At the first point accumulator 1 is cleared and then receives the block's sum of x3·(x0 − x2)²: its two stores leave the
    update applied to the zero word. -/
private theorem piece_A_1 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : cond0_0 i) (hc1 : ¬cond0_1 i)
    (x0 : Vec F S768x512 .f32) (x1 : Vec F S768x512 .f32) (x2 : Vec F S768x512 .f32) (x3 : Vec F S768x512 .f32) (x4 : Vec F S256x512 .f32) (x5 : Vec F S256x512 .f32) :
    sout0_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = k0_pay2 (k0_pay8 x0 x2 x3) k0_pay5 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg1.read_unread, harg3.read_unread, harg4.read_unread, View.ld_unit_zero (S := S768x512) hz]

/-- At the first point accumulator 2 is cleared and then receives the block's sum of (x5 − x4)²: its two stores leave the
    update applied to the zero word. -/
private theorem piece_A_2 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : cond0_0 i) (hc1 : ¬cond0_1 i)
    (x0 : Vec F S768x512 .f32) (x1 : Vec F S768x512 .f32) (x2 : Vec F S768x512 .f32) (x3 : Vec F S768x512 .f32) (x4 : Vec F S256x512 .f32) (x5 : Vec F S256x512 .f32) :
    sout0_A_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = k0_pay3 (k0_pay9 x4 x5) k0_pay6 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg5.read_unread, harg6.read_unread, View.ld_unit_zero (S := S256x512) hz]

/-- At a later point accumulator 0's one store leaves the update applied to what the point before left. -/
private theorem piece_B_0 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : ¬cond0_1 i)
    (x0 : Vec F S768x512 .f32) (x1 : Vec F S768x512 .f32) (x2 : Vec F S768x512 .f32) (x3 : Vec F S768x512 .f32) (x4 : Vec F S256x512 .f32) (x5 : Vec F S256x512 .f32) (xs0 : Vec F S1x1 .f32) (xs1 : Vec F S1x1 .f32) (xs2 : Vec F S1x1 .f32) :
    sout0_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 = k0_pay1 (k0_pay10 x0 x1 xs0) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun0_B
  dsimp only
  sl_unfold_words
  rw [View.canon_unit_zero hz]
  simp only [View.readAt_eq_ld, harg1.read_unread, harg2.read_unread, harg10.read_unread, View.ld_unit_zero (S := S768x512) hz, View.ld_unit_zero (S := S1x1) hz]

/-- At a later point accumulator 1's one store leaves the update applied to what the point before left. -/
private theorem piece_B_1 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : ¬cond0_1 i)
    (x0 : Vec F S768x512 .f32) (x1 : Vec F S768x512 .f32) (x2 : Vec F S768x512 .f32) (x3 : Vec F S768x512 .f32) (x4 : Vec F S256x512 .f32) (x5 : Vec F S256x512 .f32) (xs0 : Vec F S1x1 .f32) (xs1 : Vec F S1x1 .f32) (xs2 : Vec F S1x1 .f32) :
    sout0_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 = k0_pay2 (k0_pay8 x0 x2 x3) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun0_B
  dsimp only
  sl_unfold_words
  rw [View.canon_unit_zero hz]
  simp only [View.readAt_eq_ld, harg1.read_unread, harg3.read_unread, harg4.read_unread, harg11.read_unread, View.ld_unit_zero (S := S768x512) hz, View.ld_unit_zero (S := S1x1) hz]

/-- At a later point accumulator 2's one store leaves the update applied to what the point before left. -/
private theorem piece_B_2 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : ¬cond0_1 i)
    (x0 : Vec F S768x512 .f32) (x1 : Vec F S768x512 .f32) (x2 : Vec F S768x512 .f32) (x3 : Vec F S768x512 .f32) (x4 : Vec F S256x512 .f32) (x5 : Vec F S256x512 .f32) (xs0 : Vec F S1x1 .f32) (xs1 : Vec F S1x1 .f32) (xs2 : Vec F S1x1 .f32) :
    sout0_B_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 = k0_pay3 (k0_pay9 x4 x5) xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun0_B
  dsimp only
  sl_unfold_words
  rw [View.canon_unit_zero hz]
  simp only [View.readAt_eq_ld, harg5.read_unread, harg6.read_unread, harg12.read_unread, View.ld_unit_zero (S := S256x512) hz, View.ld_unit_zero (S := S1x1) hz]

/-- At a later point accumulator 0's one store leaves the update applied to what the point before left. -/
private theorem piece_C_0 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i)
    (x0 : Vec F S768x512 .f32) (x1 : Vec F S768x512 .f32) (x2 : Vec F S768x512 .f32) (x3 : Vec F S768x512 .f32) (x4 : Vec F S256x512 .f32) (x5 : Vec F S256x512 .f32) (xs0 : Vec F S1x1 .f32) (xs1 : Vec F S1x1 .f32) (xs2 : Vec F S1x1 .f32) :
    sout0_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 = k0_pay1 (k0_pay10 x0 x1 xs0) := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun0_C
  dsimp only
  sl_unfold_words
  rw [View.canon_unit_zero hz]
  simp only [View.readAt_eq_ld, harg1.read_unread, harg2.read_unread, harg10.read_unread, View.ld_unit_zero (S := S768x512) hz, View.ld_unit_zero (S := S1x1) hz]

/-- At a later point accumulator 1's one store leaves the update applied to what the point before left. -/
private theorem piece_C_1 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i)
    (x0 : Vec F S768x512 .f32) (x1 : Vec F S768x512 .f32) (x2 : Vec F S768x512 .f32) (x3 : Vec F S768x512 .f32) (x4 : Vec F S256x512 .f32) (x5 : Vec F S256x512 .f32) (xs0 : Vec F S1x1 .f32) (xs1 : Vec F S1x1 .f32) (xs2 : Vec F S1x1 .f32) :
    sout0_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 = k0_pay2 (k0_pay8 x0 x2 x3) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun0_C
  dsimp only
  sl_unfold_words
  rw [View.canon_unit_zero hz]
  simp only [View.readAt_eq_ld, harg1.read_unread, harg3.read_unread, harg4.read_unread, harg11.read_unread, View.ld_unit_zero (S := S768x512) hz, View.ld_unit_zero (S := S1x1) hz]

/-- At a later point accumulator 2's one store leaves the update applied to what the point before left. -/
private theorem piece_C_2 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i)
    (x0 : Vec F S768x512 .f32) (x1 : Vec F S768x512 .f32) (x2 : Vec F S768x512 .f32) (x3 : Vec F S768x512 .f32) (x4 : Vec F S256x512 .f32) (x5 : Vec F S256x512 .f32) (xs0 : Vec F S1x1 .f32) (xs1 : Vec F S1x1 .f32) (xs2 : Vec F S1x1 .f32) :
    sout0_C_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 = k0_pay3 (k0_pay9 x4 x5) xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun0_C
  dsimp only
  sl_unfold_words
  rw [View.canon_unit_zero hz]
  simp only [View.readAt_eq_ld, harg5.read_unread, harg6.read_unread, harg12.read_unread, View.ld_unit_zero (S := S256x512) hz, View.ld_unit_zero (S := S1x1) hz]

/-- At the last point result 6 is a copy of accumulator 0 read back after its store. -/
private theorem piece_C_6 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i)
    (x0 : Vec F S768x512 .f32) (x1 : Vec F S768x512 .f32) (x2 : Vec F S768x512 .f32) (x3 : Vec F S768x512 .f32) (x4 : Vec F S256x512 .f32) (x5 : Vec F S256x512 .f32) (xs0 : Vec F S1x1 .f32) (xs1 : Vec F S1x1 .f32) (xs2 : Vec F S1x1 .f32) :
    out0_C_6 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 = k0_pay1 (k0_pay10 x0 x1 xs0) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun0_C
  dsimp only
  sl_unfold_words
  rw [View.canon_unit_zero hz, View.readCov_unit_zero (S := S1x1) _ hz]
  simp only [View.readAt_eq_ld, harg1.read_unread, harg2.read_unread, harg10.read_unread, View.ld_unit_zero (S := S768x512) hz, View.ld_unit_zero (S := S1x1) hz]

/-- At the last point result 7 is a copy of accumulator 1 read back after its store. -/
private theorem piece_C_7 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i)
    (x0 : Vec F S768x512 .f32) (x1 : Vec F S768x512 .f32) (x2 : Vec F S768x512 .f32) (x3 : Vec F S768x512 .f32) (x4 : Vec F S256x512 .f32) (x5 : Vec F S256x512 .f32) (xs0 : Vec F S1x1 .f32) (xs1 : Vec F S1x1 .f32) (xs2 : Vec F S1x1 .f32) :
    out0_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 = k0_pay2 (k0_pay8 x0 x2 x3) xs1 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun0_C
  dsimp only
  sl_unfold_words
  rw [View.canon_unit_zero hz, View.readCov_unit_zero (S := S1x1) _ hz]
  simp only [View.readAt_eq_ld, harg1.read_unread, harg3.read_unread, harg4.read_unread, harg11.read_unread, View.ld_unit_zero (S := S768x512) hz, View.ld_unit_zero (S := S1x1) hz]

/-- At the last point result 8 is a copy of accumulator 2 read back after its store. -/
private theorem piece_C_8 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i)
    (x0 : Vec F S768x512 .f32) (x1 : Vec F S768x512 .f32) (x2 : Vec F S768x512 .f32) (x3 : Vec F S768x512 .f32) (x4 : Vec F S256x512 .f32) (x5 : Vec F S256x512 .f32) (xs0 : Vec F S1x1 .f32) (xs1 : Vec F S1x1 .f32) (xs2 : Vec F S1x1 .f32) :
    out0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 = k0_pay3 (k0_pay9 x4 x5) xs2 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2)]
  unfold kernelRun0_C
  dsimp only
  sl_unfold_words
  rw [View.canon_unit_zero hz, View.readCov_unit_zero (S := S1x1) _ hz]
  simp only [View.readAt_eq_ld, harg5.read_unread, harg6.read_unread, harg12.read_unread, View.ld_unit_zero (S := S256x512) hz, View.ld_unit_zero (S := S1x1) hz]

end Generic

section AtIdeal

/-- Summing an [n, m] array over its lanes, then (after the keepdims cast to [n, 1]) over its rows, then casting the
    one result to [1, 1]: at the exact values this is the double sum over rows and lanes. -/
private theorem total_apply {n m : Nat} (v : FVec Ideal ⟨2, ![n, m]⟩ .f32)
    (h1 : (⟨2, ![n, m]⟩ : Shape).Reduces [1] ⟨1, ![n]⟩) (c1 : (⟨1, ![n]⟩ : Shape).ShapeCasts ⟨2, ![n, 1]⟩)
    (h2 : (⟨2, ![n, 1]⟩ : Shape).Reduces [0] ⟨1, ![1]⟩) (c2 : (⟨1, ![1]⟩ : Shape).ShapeCasts ⟨2, ![1, 1]⟩)
    (hφ : FKind.Formats .f32) (hacc : (0x00000000#32 : BitVec 32) = FKind.add.neutral .f32 hφ)
    (y : (⟨2, ![1, 1]⟩ : Shape).Idx) :
    shapeCast ⟨2, ![1, 1]⟩ (multiReduction (F := Ideal) .add [0] ⟨1, ![1]⟩
        (shapeCast ⟨2, ![n, 1]⟩ (multiReduction (F := Ideal) .add [1] ⟨1, ![n]⟩ v 0x00000000#32 h1 hφ hacc) c1)
        0x00000000#32 h2 hφ hacc) c2 y
      = ∑ p : Fin n, ∑ q : Fin m, v (ix2 p q) := by
  have hy0 : (y 0).val < 1 := idx2_lt0 y
  have hy1 : (y 1).val < 1 := idx2_lt1 y
  refine (shapeCast_apply _ c2 y (ix1 (0 : Fin 1)) ?_).trans ?_
  · rw [Shape.rowMajor_val_one, Shape.rowMajor_val_two]
    show 0 = (y 0).val * 1 + (y 1).val
    omega
  refine (Ideal.multiReduction_add_single _ _ h2 hφ hacc (ix1 (0 : Fin 1))).trans ?_
  show ∑ p : Fin n, _ = _
  refine Finset.sum_congr rfl fun p _ => ?_
  refine (shapeCast_apply _ c1 _ (ix1 p) ?_).trans ?_
  · rw [Shape.rowMajor_val_one, Shape.rowMajor_val_two]
    show p.val = p.val * 1 + 0
    omega
  refine (Ideal.multiReduction_add_single _ _ h1 hφ hacc (ix1 p)).trans ?_
  show ∑ q : Fin m, _ = _
  refine Finset.sum_congr rfl fun q _ => ?_
  refine congrArg v (funext fun a => ?_)
  match a with
  | ⟨0, _⟩ => rfl
  | ⟨1, _⟩ => rfl

/-- The first accumulator's new contents at the exact values: the old contents plus the block's sum of (x0 − x1)². -/
private theorem pay10_apply (x0 x1 : Vec Ideal S768x512 .f32) (s : Vec Ideal S1x1 .f32) (y : S1x1.Idx) :
    k0_pay1 (F := Ideal) (k0_pay10 (F := Ideal) x0 x1 s) y
      = s y + ∑ p : Fin 768, ∑ q : Fin 512, sq (x0 (ix2 p q)) (x1 (ix2 p q)) := by
  unfold k0_pay1 k0_pay10 k0_pay7
  simp only [shapeCast_self]
  refine (addf_apply _ _ _).trans ?_
  refine congrArg (s y + ·) ?_
  refine (total_apply _ _ _ _ _ _ _ y).trans ?_
  rfl

/-- The second accumulator's new contents at the exact values: the old contents plus the block's sum of x3·(x0 − x2)². -/
private theorem pay8_apply (x0 x2 x3 : Vec Ideal S768x512 .f32) (s : Vec Ideal S1x1 .f32) (y : S1x1.Idx) :
    k0_pay2 (F := Ideal) (k0_pay8 (F := Ideal) x0 x2 x3) s y
      = s y + ∑ p : Fin 768, ∑ q : Fin 512, x3 (ix2 p q) * sq (x0 (ix2 p q)) (x2 (ix2 p q)) := by
  unfold k0_pay2 k0_pay8 k0_pay7
  simp only [shapeCast_self]
  refine (addf_apply _ _ _).trans ?_
  refine congrArg (s y + ·) ?_
  refine (total_apply _ _ _ _ _ _ _ y).trans ?_
  rfl

/-- The third accumulator's new contents at the exact values: the old contents plus the block's sum of (x5 − x4)². -/
private theorem pay9_apply (x4 x5 : Vec Ideal S256x512 .f32) (s : Vec Ideal S1x1 .f32) (y : S1x1.Idx) :
    k0_pay3 (F := Ideal) (k0_pay9 (F := Ideal) x4 x5) s y
      = s y + ∑ p : Fin 256, ∑ q : Fin 512, sq (x5 (ix2 p q)) (x4 (ix2 p q)) := by
  unfold k0_pay3 k0_pay9
  simp only [shapeCast_self]
  refine (addf_apply _ _ _).trans ?_
  refine congrArg (s y + ·) ?_
  refine (total_apply _ _ _ _ _ _ _ y).trans ?_
  rfl

/-- The cleared accumulators hold the zero word, whose exact value is 0. -/
private theorem pay4_apply (y : S1x1.Idx) : k0_pay4 (F := Ideal) y = 0 := by
  unfold k0_pay4
  simp only [shapeCast_self]
  exact Ideal.ofBits_zero_f32
private theorem pay5_apply (y : S1x1.Idx) : k0_pay5 (F := Ideal) y = 0 := by
  unfold k0_pay5
  simp only [shapeCast_self]
  exact Ideal.ofBits_zero_f32
private theorem pay6_apply (y : S1x1.Idx) : k0_pay6 (F := Ideal) y = 0 := by
  unfold k0_pay6
  simp only [shapeCast_self]
  exact Ideal.ofBits_zero_f32

end AtIdeal

theorem sout_A_0 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : cond0_0 i) (hc1 : ¬cond0_1 i)
    (x0 : Vec Ideal S768x512 .f32) (x1 : Vec Ideal S768x512 .f32) (x2 : Vec Ideal S768x512 .f32) (x3 : Vec Ideal S768x512 .f32) (x4 : Vec Ideal S256x512 .f32) (x5 : Vec Ideal S256x512 .f32) (y : S1x1.Idx) :
    sout0_A_0 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 y = ∑ p : Fin 768, ∑ q : Fin 512, sq (x0 (ix2 p q)) (x1 (ix2 p q)) := by
  rw [piece_A_0 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5]
  refine (pay10_apply x0 x1 _ y).trans ?_
  rw [pay4_apply y, zero_add]

theorem sout_A_1 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : cond0_0 i) (hc1 : ¬cond0_1 i)
    (x0 : Vec Ideal S768x512 .f32) (x1 : Vec Ideal S768x512 .f32) (x2 : Vec Ideal S768x512 .f32) (x3 : Vec Ideal S768x512 .f32) (x4 : Vec Ideal S256x512 .f32) (x5 : Vec Ideal S256x512 .f32) (y : S1x1.Idx) :
    sout0_A_1 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 y = ∑ p : Fin 768, ∑ q : Fin 512, x3 (ix2 p q) * sq (x0 (ix2 p q)) (x2 (ix2 p q)) := by
  rw [piece_A_1 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5]
  refine (pay8_apply x0 x2 x3 _ y).trans ?_
  rw [pay5_apply y, zero_add]

theorem sout_A_2 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : cond0_0 i) (hc1 : ¬cond0_1 i)
    (x0 : Vec Ideal S768x512 .f32) (x1 : Vec Ideal S768x512 .f32) (x2 : Vec Ideal S768x512 .f32) (x3 : Vec Ideal S768x512 .f32) (x4 : Vec Ideal S256x512 .f32) (x5 : Vec Ideal S256x512 .f32) (y : S1x1.Idx) :
    sout0_A_2 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 y = ∑ p : Fin 256, ∑ q : Fin 512, sq (x5 (ix2 p q)) (x4 (ix2 p q)) := by
  rw [piece_A_2 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5]
  refine (pay9_apply x4 x5 _ y).trans ?_
  rw [pay6_apply y, zero_add]

theorem sout_B_0 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : ¬cond0_1 i)
    (x0 : Vec Ideal S768x512 .f32) (x1 : Vec Ideal S768x512 .f32) (x2 : Vec Ideal S768x512 .f32) (x3 : Vec Ideal S768x512 .f32) (x4 : Vec Ideal S256x512 .f32) (x5 : Vec Ideal S256x512 .f32) (xs0 : Vec Ideal S1x1 .f32) (xs1 : Vec Ideal S1x1 .f32) (xs2 : Vec Ideal S1x1 .f32) (y : S1x1.Idx) :
    sout0_B_0 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 y = xs0 y + ∑ p : Fin 768, ∑ q : Fin 512, sq (x0 (ix2 p q)) (x1 (ix2 p q)) := by
  rw [piece_B_0 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2]
  exact pay10_apply x0 x1 xs0 y

theorem sout_B_1 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : ¬cond0_1 i)
    (x0 : Vec Ideal S768x512 .f32) (x1 : Vec Ideal S768x512 .f32) (x2 : Vec Ideal S768x512 .f32) (x3 : Vec Ideal S768x512 .f32) (x4 : Vec Ideal S256x512 .f32) (x5 : Vec Ideal S256x512 .f32) (xs0 : Vec Ideal S1x1 .f32) (xs1 : Vec Ideal S1x1 .f32) (xs2 : Vec Ideal S1x1 .f32) (y : S1x1.Idx) :
    sout0_B_1 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 y = xs1 y + ∑ p : Fin 768, ∑ q : Fin 512, x3 (ix2 p q) * sq (x0 (ix2 p q)) (x2 (ix2 p q)) := by
  rw [piece_B_1 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2]
  exact pay8_apply x0 x2 x3 xs1 y

theorem sout_B_2 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : ¬cond0_1 i)
    (x0 : Vec Ideal S768x512 .f32) (x1 : Vec Ideal S768x512 .f32) (x2 : Vec Ideal S768x512 .f32) (x3 : Vec Ideal S768x512 .f32) (x4 : Vec Ideal S256x512 .f32) (x5 : Vec Ideal S256x512 .f32) (xs0 : Vec Ideal S1x1 .f32) (xs1 : Vec Ideal S1x1 .f32) (xs2 : Vec Ideal S1x1 .f32) (y : S1x1.Idx) :
    sout0_B_2 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 y = xs2 y + ∑ p : Fin 256, ∑ q : Fin 512, sq (x5 (ix2 p q)) (x4 (ix2 p q)) := by
  rw [piece_B_2 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2]
  exact pay9_apply x4 x5 xs2 y

theorem sout_C_0 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i)
    (x0 : Vec Ideal S768x512 .f32) (x1 : Vec Ideal S768x512 .f32) (x2 : Vec Ideal S768x512 .f32) (x3 : Vec Ideal S768x512 .f32) (x4 : Vec Ideal S256x512 .f32) (x5 : Vec Ideal S256x512 .f32) (xs0 : Vec Ideal S1x1 .f32) (xs1 : Vec Ideal S1x1 .f32) (xs2 : Vec Ideal S1x1 .f32) (y : S1x1.Idx) :
    sout0_C_0 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 y = xs0 y + ∑ p : Fin 768, ∑ q : Fin 512, sq (x0 (ix2 p q)) (x1 (ix2 p q)) := by
  rw [piece_C_0 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2]
  exact pay10_apply x0 x1 xs0 y

theorem sout_C_1 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i)
    (x0 : Vec Ideal S768x512 .f32) (x1 : Vec Ideal S768x512 .f32) (x2 : Vec Ideal S768x512 .f32) (x3 : Vec Ideal S768x512 .f32) (x4 : Vec Ideal S256x512 .f32) (x5 : Vec Ideal S256x512 .f32) (xs0 : Vec Ideal S1x1 .f32) (xs1 : Vec Ideal S1x1 .f32) (xs2 : Vec Ideal S1x1 .f32) (y : S1x1.Idx) :
    sout0_C_1 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 y = xs1 y + ∑ p : Fin 768, ∑ q : Fin 512, x3 (ix2 p q) * sq (x0 (ix2 p q)) (x2 (ix2 p q)) := by
  rw [piece_C_1 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2]
  exact pay8_apply x0 x2 x3 xs1 y

theorem sout_C_2 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i)
    (x0 : Vec Ideal S768x512 .f32) (x1 : Vec Ideal S768x512 .f32) (x2 : Vec Ideal S768x512 .f32) (x3 : Vec Ideal S768x512 .f32) (x4 : Vec Ideal S256x512 .f32) (x5 : Vec Ideal S256x512 .f32) (xs0 : Vec Ideal S1x1 .f32) (xs1 : Vec Ideal S1x1 .f32) (xs2 : Vec Ideal S1x1 .f32) (y : S1x1.Idx) :
    sout0_C_2 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 y = xs2 y + ∑ p : Fin 256, ∑ q : Fin 512, sq (x5 (ix2 p q)) (x4 (ix2 p q)) := by
  rw [piece_C_2 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2]
  exact pay9_apply x4 x5 xs2 y

theorem out_C_6 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i)
    (x0 : Vec Ideal S768x512 .f32) (x1 : Vec Ideal S768x512 .f32) (x2 : Vec Ideal S768x512 .f32) (x3 : Vec Ideal S768x512 .f32) (x4 : Vec Ideal S256x512 .f32) (x5 : Vec Ideal S256x512 .f32) (xs0 : Vec Ideal S1x1 .f32) (xs1 : Vec Ideal S1x1 .f32) (xs2 : Vec Ideal S1x1 .f32) (y : S1x1.Idx) :
    out0_C_6 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 y = xs0 y + ∑ p : Fin 768, ∑ q : Fin 512, sq (x0 (ix2 p q)) (x1 (ix2 p q)) := by
  rw [piece_C_6 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2]
  exact pay10_apply x0 x1 xs0 y

theorem out_C_7 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i)
    (x0 : Vec Ideal S768x512 .f32) (x1 : Vec Ideal S768x512 .f32) (x2 : Vec Ideal S768x512 .f32) (x3 : Vec Ideal S768x512 .f32) (x4 : Vec Ideal S256x512 .f32) (x5 : Vec Ideal S256x512 .f32) (xs0 : Vec Ideal S1x1 .f32) (xs1 : Vec Ideal S1x1 .f32) (xs2 : Vec Ideal S1x1 .f32) (y : S1x1.Idx) :
    out0_C_7 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 y = xs1 y + ∑ p : Fin 768, ∑ q : Fin 512, x3 (ix2 p q) * sq (x0 (ix2 p q)) (x2 (ix2 p q)) := by
  rw [piece_C_7 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2]
  exact pay8_apply x0 x2 x3 xs1 y

theorem out_C_8 (c : Dev nD) (i : grid0.Coords) (arg1 : Memref sig .tc .vmem S768x512 .f32) (harg1 : arg1.IsWhole) (arg2 : Memref sig .tc .vmem S768x512 .f32) (harg2 : arg2.IsWhole) (arg3 : Memref sig .tc .vmem S768x512 .f32) (harg3 : arg3.IsWhole) (arg4 : Memref sig .tc .vmem S768x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x1 .f32) (harg12 : arg12.IsWhole) (hc0 : ¬cond0_0 i) (hc1 : cond0_1 i)
    (x0 : Vec Ideal S768x512 .f32) (x1 : Vec Ideal S768x512 .f32) (x2 : Vec Ideal S768x512 .f32) (x3 : Vec Ideal S768x512 .f32) (x4 : Vec Ideal S256x512 .f32) (x5 : Vec Ideal S256x512 .f32) (xs0 : Vec Ideal S1x1 .f32) (xs1 : Vec Ideal S1x1 .f32) (xs2 : Vec Ideal S1x1 .f32) (y : S1x1.Idx) :
    out0_C_8 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2 y = xs2 y + ∑ p : Fin 256, ∑ q : Fin 512, sq (x5 (ix2 p q)) (x4 (ix2 p q)) := by
  rw [piece_C_8 (F := Ideal) c i arg1 harg1 arg2 harg2 arg3 harg3 arg4 harg4 arg5 harg5 arg6 harg6 arg7 harg7 arg8 harg8 arg9 harg9 arg10 harg10 arg11 harg11 arg12 harg12 hc0 hc1 x0 x1 x2 x3 x4 x5 xs0 xs1 xs2]
  exact pay9_apply x4 x5 xs2 y

end Cert.KernelIdeal.KPieces

end
-- ==== Proof.KValue.lean ====
/-
  What the region's three output arrays hold after the run, at the exact values.

  Each 1×1 output is written back once, at the last of the 32 grid points, with the accumulator's contents: the sum
  over all 32 blocks of the block's sum of squared differences. By induction over the points: the accumulator after
  point t is the sum of the first t + 1 block sums.
-/
import proofs.«135916_j29789893165394_2_alg».proof.Proof.KPieces

set_option maxRecDepth 16384

noncomputable section

open scoped BigOperators

namespace Cert.KernelIdeal.KValue

open Idealize.ShloMosaic Idealize.ShloMosaic.TcCoe Idealize.SL.Sem Idealize.ShloMosaic.ValueIdx
open Cert.KernelIdeal Cert.KernelIdeal.Gen Cert.LossSpec

variable (m : (ℓ : Loc nD τ sig) → Buf (Elt Ideal) ℓ)

/-! ## Block reads: what each input window's block holds at a grid point -/

/-- Window 0's block index at every grid point: the point's number along the rows, zero along the lanes. -/
private theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The block of window 0 at point `t` reads the slab at row `t * 768 + p`, lane `q`. -/
private theorem rd0 (c : Dev nD) (t : Fin cfg0.N) (p : Fin 768) (q : Fin 512) :
    iblk m c 0 t (ix2 p q) = V m c main_v6 (ix2 (⟨t.val * 768 + p.val, by
      have := p.isLt; have := lt_of_lt_of_eq t.isLt (show cfg0.N = 32 from N_0); omega⟩ : Fin 24576) q) := by
  obtain ⟨e0, e1⟩ := idx0 t
  unfold iblk
  rw [View.read_apply]
  show V m c main_v6 _ = V m c main_v6 _
  congr 1
  funext a
  apply Fin.ext
  match a with
  | ⟨0, _⟩ => show win0_0.index t (0 : Fin 2) * 768 + 1 * p.val = t.val * 768 + p.val; rw [e0]; omega
  | ⟨1, _⟩ => show win0_0.index t (1 : Fin 2) * 512 + 1 * q.val = q.val; rw [e1]; omega

/-- Window 1's block index at every grid point: the point's number along the rows, zero along the lanes. -/
private theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The block of window 1 at point `t` reads the slab at row `t * 768 + p`, lane `q`. -/
private theorem rd1 (c : Dev nD) (t : Fin cfg0.N) (p : Fin 768) (q : Fin 512) :
    iblk m c 1 t (ix2 p q) = V m c main_v7 (ix2 (⟨t.val * 768 + p.val, by
      have := p.isLt; have := lt_of_lt_of_eq t.isLt (show cfg0.N = 32 from N_0); omega⟩ : Fin 24576) q) := by
  obtain ⟨e0, e1⟩ := idx1 t
  unfold iblk
  rw [View.read_apply]
  show V m c main_v7 _ = V m c main_v7 _
  congr 1
  funext a
  apply Fin.ext
  match a with
  | ⟨0, _⟩ => show win0_1.index t (0 : Fin 2) * 768 + 1 * p.val = t.val * 768 + p.val; rw [e0]; omega
  | ⟨1, _⟩ => show win0_1.index t (1 : Fin 2) * 512 + 1 * q.val = q.val; rw [e1]; omega

/-- Window 2's block index at every grid point: the point's number along the rows, zero along the lanes. -/
private theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- The block of window 2 at point `t` reads the slab at row `t * 768 + p`, lane `q`. -/
private theorem rd2 (c : Dev nD) (t : Fin cfg0.N) (p : Fin 768) (q : Fin 512) :
    iblk m c 2 t (ix2 p q) = V m c main_v8 (ix2 (⟨t.val * 768 + p.val, by
      have := p.isLt; have := lt_of_lt_of_eq t.isLt (show cfg0.N = 32 from N_0); omega⟩ : Fin 24576) q) := by
  obtain ⟨e0, e1⟩ := idx2 t
  unfold iblk
  rw [View.read_apply]
  show V m c main_v8 _ = V m c main_v8 _
  congr 1
  funext a
  apply Fin.ext
  match a with
  | ⟨0, _⟩ => show win0_2.index t (0 : Fin 2) * 768 + 1 * p.val = t.val * 768 + p.val; rw [e0]; omega
  | ⟨1, _⟩ => show win0_2.index t (1 : Fin 2) * 512 + 1 * q.val = q.val; rw [e1]; omega

/-- Window 3's block index at every grid point: the point's number along the rows, zero along the lanes. -/
private theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- The block of window 3 at point `t` reads the slab at row `t * 768 + p`, lane `q`. -/
private theorem rd3 (c : Dev nD) (t : Fin cfg0.N) (p : Fin 768) (q : Fin 512) :
    iblk m c 3 t (ix2 p q) = V m c main_v9 (ix2 (⟨t.val * 768 + p.val, by
      have := p.isLt; have := lt_of_lt_of_eq t.isLt (show cfg0.N = 32 from N_0); omega⟩ : Fin 24576) q) := by
  obtain ⟨e0, e1⟩ := idx3 t
  unfold iblk
  rw [View.read_apply]
  show V m c main_v9 _ = V m c main_v9 _
  congr 1
  funext a
  apply Fin.ext
  match a with
  | ⟨0, _⟩ => show win0_3.index t (0 : Fin 2) * 768 + 1 * p.val = t.val * 768 + p.val; rw [e0]; omega
  | ⟨1, _⟩ => show win0_3.index t (1 : Fin 2) * 512 + 1 * q.val = q.val; rw [e1]; omega

/-- Window 4's block index at every grid point: the point's number along the rows, zero along the lanes. -/
private theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- The block of window 4 at point `t` reads the slab at row `t * 256 + p`, lane `q`. -/
private theorem rd4 (c : Dev nD) (t : Fin cfg0.N) (p : Fin 256) (q : Fin 512) :
    iblk m c 4 t (ix2 p q) = V m c main_v10 (ix2 (⟨t.val * 256 + p.val, by
      have := p.isLt; have := lt_of_lt_of_eq t.isLt (show cfg0.N = 32 from N_0); omega⟩ : Fin 8192) q) := by
  obtain ⟨e0, e1⟩ := idx4 t
  unfold iblk
  rw [View.read_apply]
  show V m c main_v10 _ = V m c main_v10 _
  congr 1
  funext a
  apply Fin.ext
  match a with
  | ⟨0, _⟩ => show win0_4.index t (0 : Fin 2) * 256 + 1 * p.val = t.val * 256 + p.val; rw [e0]; omega
  | ⟨1, _⟩ => show win0_4.index t (1 : Fin 2) * 512 + 1 * q.val = q.val; rw [e1]; omega

/-- Window 5's block index at every grid point: the point's number along the rows, zero along the lanes. -/
private theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- The block of window 5 at point `t` reads the slab at row `t * 256 + p`, lane `q`. -/
private theorem rd5 (c : Dev nD) (t : Fin cfg0.N) (p : Fin 256) (q : Fin 512) :
    iblk m c 5 t (ix2 p q) = V m c main_v11 (ix2 (⟨t.val * 256 + p.val, by
      have := p.isLt; have := lt_of_lt_of_eq t.isLt (show cfg0.N = 32 from N_0); omega⟩ : Fin 8192) q) := by
  obtain ⟨e0, e1⟩ := idx5 t
  unfold iblk
  rw [View.read_apply]
  show V m c main_v11 _ = V m c main_v11 _
  congr 1
  funext a
  apply Fin.ext
  match a with
  | ⟨0, _⟩ => show win0_5.index t (0 : Fin 2) * 256 + 1 * p.val = t.val * 256 + p.val; rw [e0]; omega
  | ⟨1, _⟩ => show win0_5.index t (1 : Fin 2) * 512 + 1 * q.val = q.val; rw [e1]; omega

/-- The last of the 32 grid points. -/
private abbrev tLast : Fin cfg0.N := ⟨31, by rw [show cfg0.N = 32 from N_0]; decide⟩

/-! ## Output 6 -/

/-- The sum of the squared colour differences over the block of point `t` is block `t`'s share of the slab sum. -/
private theorem blk0 (c : Dev nD) (t : Fin cfg0.N) :
    (∑ p : Fin 768, ∑ q : Fin 512, sq (iblk m c 0 t (ix2 p q)) (iblk m c 1 t (ix2 p q))) = blkRgb (fun i => sq (V m c main_v6 i) (V m c main_v7 i)) t.val := by
  have ht : t.val < 32 := lt_of_lt_of_eq t.isLt (show cfg0.N = 32 from N_0)
  unfold blkRgb
  rw [dif_pos ht]
  refine Finset.sum_congr rfl fun p _ => Finset.sum_congr rfl fun q _ => ?_
  rw [rd0 m c t p q, rd1 m c t p q]

/-- At the first point the accumulator is cleared and ends at the block's sum. -/
private theorem ptA0 (c : Dev nD) (t : Fin cfg0.N) (h0 : t.val % 32 = 0) (h1 : ¬t.val % 32 = 31) (y : S1x1.Idx) :
    (outsAt0 m c t.val t.isLt).2.2.2.1 y = blkRgb (fun i => sq (V m c main_v6 i) (V m c main_v7 i)) t.val := by
  rw [outsAt0_A m c t h0 h1]
  dsimp only
  exact (KPieces.sout_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) y).trans (blk0 m c t)

/-- At a middle point the accumulator ends at what the point before left plus the block's sum. -/
private theorem ptB0 (c : Dev nD) (t : Fin cfg0.N) (h0 : ¬t.val % 32 = 0) (h1 : ¬t.val % 32 = 31) (y : S1x1.Idx) :
    (outsAt0 m c t.val t.isLt).2.2.2.1 y = (outsAt0 m c (t.val - 1) (Nat.lt_of_le_of_lt (Nat.sub_le _ _) t.isLt)).2.2.2.1 y + blkRgb (fun i => sq (V m c main_v6 i) (V m c main_v7 i)) t.val := by
  rw [outsAt0_B m c t h0 h1]
  dsimp only
  exact (KPieces.sout_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 y).trans (congrArg (fun z => _ + z) (blk0 m c t))

/-- At the last point the accumulator ends at what the point before left plus the block's sum, -/
private theorem ptC0 (c : Dev nD) (t : Fin cfg0.N) (h0 : ¬t.val % 32 = 0) (h1 : t.val % 32 = 31) (y : S1x1.Idx) :
    (outsAt0 m c t.val t.isLt).2.2.2.1 y = (outsAt0 m c (t.val - 1) (Nat.lt_of_le_of_lt (Nat.sub_le _ _) t.isLt)).2.2.2.1 y + blkRgb (fun i => sq (V m c main_v6 i) (V m c main_v7 i)) t.val := by
  rw [outsAt0_C m c t h0 h1]
  dsimp only
  exact (KPieces.sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 y).trans (congrArg (fun z => _ + z) (blk0 m c t))

/-- and the output is a copy of it. -/
private theorem ptO0 (c : Dev nD) (t : Fin cfg0.N) (h0 : ¬t.val % 32 = 0) (h1 : t.val % 32 = 31) (y : S1x1.Idx) :
    (outsAt0 m c t.val t.isLt).1 y = (outsAt0 m c (t.val - 1) (Nat.lt_of_le_of_lt (Nat.sub_le _ _) t.isLt)).2.2.2.1 y + blkRgb (fun i => sq (V m c main_v6 i) (V m c main_v7 i)) t.val := by
  rw [outsAt0_C m c t h0 h1]
  dsimp only
  exact (KPieces.out_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 y).trans (congrArg (fun z => _ + z) (blk0 m c t))

/-- The accumulator after point `n` is the sum of the first `n + 1` block sums: by induction on the point. -/
private theorem acc0 (c : Dev nD) (n : ℕ) : ∀ (hn : n < cfg0.N) (y : S1x1.Idx),
    (outsAt0 m c n hn).2.2.2.1 y = ∑ s ∈ Finset.range (n + 1), blkRgb (fun i => sq (V m c main_v6 i) (V m c main_v7 i)) s := by
  induction n with
  | zero =>
    intro hn y
    rw [Finset.sum_range_one]
    exact ptA0 m c ⟨0, hn⟩ (Nat.zero_mod _) (by show ¬(0 : ℕ) % 32 = 31; decide) y
  | succ n ih =>
    intro hn y
    have hN : n + 1 < 32 := lt_of_lt_of_eq hn (show cfg0.N = 32 from N_0)
    have h0 : ¬(n + 1) % 32 = 0 := by omega
    rw [Finset.sum_range_succ, ← ih (Nat.lt_of_succ_lt hn) y]
    by_cases h1 : (n + 1) % 32 = 31
    · exact ptC0 m c ⟨n + 1, hn⟩ h0 h1 y
    · exact ptB0 m c ⟨n + 1, hn⟩ h0 h1 y

/-- At the last point the output holds the sum of all 32 block sums. -/
private theorem tot0 (c : Dev nD) (t : Fin cfg0.N) (h1 : t.val % 32 = 31) (y : S1x1.Idx) :
    (outsAt0 m c t.val t.isLt).1 y = ∑ s ∈ Finset.range 32, blkRgb (fun i => sq (V m c main_v6 i) (V m c main_v7 i)) s := by
  have hN : t.val < 32 := lt_of_lt_of_eq t.isLt (show cfg0.N = 32 from N_0)
  have h0 : ¬t.val % 32 = 0 := by omega
  have ht : t.val = 31 := by omega
  have hp : t.val - 1 + 1 = 31 := by omega
  rw [ptO0 m c t h0 h1 y, acc0 m c (t.val - 1) _ y, hp, ht]
  exact (Finset.sum_range_succ _ 31).symm

/-- What the one write-back writes is the block of the constant array holding that total. -/
private theorem flushed6 (c : Dev nD) (t : Fin cfg0.N) (hf : (cfg0.win 6).flush t = true) :
    (dats m 0 c).flushed 6 t = ((cfg0.win 6).blk t).view.read (Elt Ideal)
      (fun _ => (∑ s ∈ Finset.range 32, blkRgb (fun i => sq (V m c main_v6 i) (V m c main_v7 i)) s : EReal)) := by
  have h1 : t.val % 32 = 31 := (flush0_6 t).mp hf
  show (cfg0.win 6).cut (grid0.coords t) ((dats m 0 c).after 6 t) = _
  rw [after0_6]
  funext j
  rw [View.read_apply]
  exact tot0 m c t h1 _

/-- The last point's block is the whole 1×1 array. -/
private theorem cover6 (c : Dev nD) (i : ((cfg0.win 6).arr.view.loc (c.tc : Thread nD τ)).2.ty.Idx) :
    ∃ t : Fin cfg0.N, (cfg0.win 6).flush t = true ∧ i ∈ ((cfg0.win 6).blk t).view.set := by
  refine ⟨tLast, (flush0_6 tLast).mpr rfl, ?_⟩
  show i ∈ ((View.whole main_v12_0).slice (win0_6.rect tLast)).set
  rw [View.set_slice_whole, Rect.mem_set_unit]
  intro a
  have h0 : (i 0 : Nat) < 1 := (i 0).isLt
  have h1 : (i 1 : Nat) < 1 := (i 1).isLt
  match a with
  | ⟨0, _⟩ =>
    show win0_6.index tLast 0 * win0_6.size 0 ≤ (i 0 : Nat) ∧ (i 0 : Nat) < win0_6.index tLast 0 * win0_6.size 0 + win0_6.xsize (grid0.coords tLast) 0
    rw [show win0_6.index tLast 0 * win0_6.size 0 = 0 from by decide +kernel, show win0_6.xsize (grid0.coords tLast) 0 = 1 from by decide +kernel]; omega
  | ⟨1, _⟩ =>
    show win0_6.index tLast 1 * win0_6.size 1 ≤ (i 1 : Nat) ∧ (i 1 : Nat) < win0_6.index tLast 1 * win0_6.size 1 + win0_6.xsize (grid0.coords tLast) 1
    rw [show win0_6.index tLast 1 * win0_6.size 1 = 0 from by decide +kernel, show win0_6.xsize (grid0.coords tLast) 1 = 1 from by decide +kernel]; omega

/-! ## Output 7 -/

/-- The sum of the weighted squared colour differences over the block of point `t` is block `t`'s share of the slab sum. -/
private theorem blk1 (c : Dev nD) (t : Fin cfg0.N) :
    (∑ p : Fin 768, ∑ q : Fin 512, wsq (iblk m c 3 t (ix2 p q)) (iblk m c 0 t (ix2 p q)) (iblk m c 2 t (ix2 p q))) = blkRgb (fun i => wsq (V m c main_v9 i) (V m c main_v6 i) (V m c main_v8 i)) t.val := by
  have ht : t.val < 32 := lt_of_lt_of_eq t.isLt (show cfg0.N = 32 from N_0)
  unfold blkRgb
  rw [dif_pos ht]
  refine Finset.sum_congr rfl fun p _ => Finset.sum_congr rfl fun q _ => ?_
  rw [rd3 m c t p q, rd0 m c t p q, rd2 m c t p q]

/-- At the first point the accumulator is cleared and ends at the block's sum. -/
private theorem ptA1 (c : Dev nD) (t : Fin cfg0.N) (h0 : t.val % 32 = 0) (h1 : ¬t.val % 32 = 31) (y : S1x1.Idx) :
    (outsAt0 m c t.val t.isLt).2.2.2.2.1 y = blkRgb (fun i => wsq (V m c main_v9 i) (V m c main_v6 i) (V m c main_v8 i)) t.val := by
  rw [outsAt0_A m c t h0 h1]
  dsimp only
  exact (KPieces.sout_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) y).trans (blk1 m c t)

/-- At a middle point the accumulator ends at what the point before left plus the block's sum. -/
private theorem ptB1 (c : Dev nD) (t : Fin cfg0.N) (h0 : ¬t.val % 32 = 0) (h1 : ¬t.val % 32 = 31) (y : S1x1.Idx) :
    (outsAt0 m c t.val t.isLt).2.2.2.2.1 y = (outsAt0 m c (t.val - 1) (Nat.lt_of_le_of_lt (Nat.sub_le _ _) t.isLt)).2.2.2.2.1 y + blkRgb (fun i => wsq (V m c main_v9 i) (V m c main_v6 i) (V m c main_v8 i)) t.val := by
  rw [outsAt0_B m c t h0 h1]
  dsimp only
  exact (KPieces.sout_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 y).trans (congrArg (fun z => _ + z) (blk1 m c t))

/-- At the last point the accumulator ends at what the point before left plus the block's sum, -/
private theorem ptC1 (c : Dev nD) (t : Fin cfg0.N) (h0 : ¬t.val % 32 = 0) (h1 : t.val % 32 = 31) (y : S1x1.Idx) :
    (outsAt0 m c t.val t.isLt).2.2.2.2.1 y = (outsAt0 m c (t.val - 1) (Nat.lt_of_le_of_lt (Nat.sub_le _ _) t.isLt)).2.2.2.2.1 y + blkRgb (fun i => wsq (V m c main_v9 i) (V m c main_v6 i) (V m c main_v8 i)) t.val := by
  rw [outsAt0_C m c t h0 h1]
  dsimp only
  exact (KPieces.sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 y).trans (congrArg (fun z => _ + z) (blk1 m c t))

/-- and the output is a copy of it. -/
private theorem ptO1 (c : Dev nD) (t : Fin cfg0.N) (h0 : ¬t.val % 32 = 0) (h1 : t.val % 32 = 31) (y : S1x1.Idx) :
    (outsAt0 m c t.val t.isLt).2.1 y = (outsAt0 m c (t.val - 1) (Nat.lt_of_le_of_lt (Nat.sub_le _ _) t.isLt)).2.2.2.2.1 y + blkRgb (fun i => wsq (V m c main_v9 i) (V m c main_v6 i) (V m c main_v8 i)) t.val := by
  rw [outsAt0_C m c t h0 h1]
  dsimp only
  exact (KPieces.out_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 y).trans (congrArg (fun z => _ + z) (blk1 m c t))

/-- The accumulator after point `n` is the sum of the first `n + 1` block sums: by induction on the point. -/
private theorem acc1 (c : Dev nD) (n : ℕ) : ∀ (hn : n < cfg0.N) (y : S1x1.Idx),
    (outsAt0 m c n hn).2.2.2.2.1 y = ∑ s ∈ Finset.range (n + 1), blkRgb (fun i => wsq (V m c main_v9 i) (V m c main_v6 i) (V m c main_v8 i)) s := by
  induction n with
  | zero =>
    intro hn y
    rw [Finset.sum_range_one]
    exact ptA1 m c ⟨0, hn⟩ (Nat.zero_mod _) (by show ¬(0 : ℕ) % 32 = 31; decide) y
  | succ n ih =>
    intro hn y
    have hN : n + 1 < 32 := lt_of_lt_of_eq hn (show cfg0.N = 32 from N_0)
    have h0 : ¬(n + 1) % 32 = 0 := by omega
    rw [Finset.sum_range_succ, ← ih (Nat.lt_of_succ_lt hn) y]
    by_cases h1 : (n + 1) % 32 = 31
    · exact ptC1 m c ⟨n + 1, hn⟩ h0 h1 y
    · exact ptB1 m c ⟨n + 1, hn⟩ h0 h1 y

/-- At the last point the output holds the sum of all 32 block sums. -/
private theorem tot1 (c : Dev nD) (t : Fin cfg0.N) (h1 : t.val % 32 = 31) (y : S1x1.Idx) :
    (outsAt0 m c t.val t.isLt).2.1 y = ∑ s ∈ Finset.range 32, blkRgb (fun i => wsq (V m c main_v9 i) (V m c main_v6 i) (V m c main_v8 i)) s := by
  have hN : t.val < 32 := lt_of_lt_of_eq t.isLt (show cfg0.N = 32 from N_0)
  have h0 : ¬t.val % 32 = 0 := by omega
  have ht : t.val = 31 := by omega
  have hp : t.val - 1 + 1 = 31 := by omega
  rw [ptO1 m c t h0 h1 y, acc1 m c (t.val - 1) _ y, hp, ht]
  exact (Finset.sum_range_succ _ 31).symm

/-- What the one write-back writes is the block of the constant array holding that total. -/
private theorem flushed7 (c : Dev nD) (t : Fin cfg0.N) (hf : (cfg0.win 7).flush t = true) :
    (dats m 0 c).flushed 7 t = ((cfg0.win 7).blk t).view.read (Elt Ideal)
      (fun _ => (∑ s ∈ Finset.range 32, blkRgb (fun i => wsq (V m c main_v9 i) (V m c main_v6 i) (V m c main_v8 i)) s : EReal)) := by
  have h1 : t.val % 32 = 31 := (flush0_7 t).mp hf
  show (cfg0.win 7).cut (grid0.coords t) ((dats m 0 c).after 7 t) = _
  rw [after0_7]
  funext j
  rw [View.read_apply]
  exact tot1 m c t h1 _

/-- The last point's block is the whole 1×1 array. -/
private theorem cover7 (c : Dev nD) (i : ((cfg0.win 7).arr.view.loc (c.tc : Thread nD τ)).2.ty.Idx) :
    ∃ t : Fin cfg0.N, (cfg0.win 7).flush t = true ∧ i ∈ ((cfg0.win 7).blk t).view.set := by
  refine ⟨tLast, (flush0_7 tLast).mpr rfl, ?_⟩
  show i ∈ ((View.whole main_v12_1).slice (win0_7.rect tLast)).set
  rw [View.set_slice_whole, Rect.mem_set_unit]
  intro a
  have h0 : (i 0 : Nat) < 1 := (i 0).isLt
  have h1 : (i 1 : Nat) < 1 := (i 1).isLt
  match a with
  | ⟨0, _⟩ =>
    show win0_7.index tLast 0 * win0_7.size 0 ≤ (i 0 : Nat) ∧ (i 0 : Nat) < win0_7.index tLast 0 * win0_7.size 0 + win0_7.xsize (grid0.coords tLast) 0
    rw [show win0_7.index tLast 0 * win0_7.size 0 = 0 from by decide +kernel, show win0_7.xsize (grid0.coords tLast) 0 = 1 from by decide +kernel]; omega
  | ⟨1, _⟩ =>
    show win0_7.index tLast 1 * win0_7.size 1 ≤ (i 1 : Nat) ∧ (i 1 : Nat) < win0_7.index tLast 1 * win0_7.size 1 + win0_7.xsize (grid0.coords tLast) 1
    rw [show win0_7.index tLast 1 * win0_7.size 1 = 0 from by decide +kernel, show win0_7.xsize (grid0.coords tLast) 1 = 1 from by decide +kernel]; omega

/-! ## Output 8 -/

/-- The sum of the squared opacity differences over the block of point `t` is block `t`'s share of the slab sum. -/
private theorem blk2 (c : Dev nD) (t : Fin cfg0.N) :
    (∑ p : Fin 256, ∑ q : Fin 512, sq (iblk m c 5 t (ix2 p q)) (iblk m c 4 t (ix2 p q))) = blkRay (fun i => sq (V m c main_v11 i) (V m c main_v10 i)) t.val := by
  have ht : t.val < 32 := lt_of_lt_of_eq t.isLt (show cfg0.N = 32 from N_0)
  unfold blkRay
  rw [dif_pos ht]
  refine Finset.sum_congr rfl fun p _ => Finset.sum_congr rfl fun q _ => ?_
  rw [rd5 m c t p q, rd4 m c t p q]

/-- At the first point the accumulator is cleared and ends at the block's sum. -/
private theorem ptA2 (c : Dev nD) (t : Fin cfg0.N) (h0 : t.val % 32 = 0) (h1 : ¬t.val % 32 = 31) (y : S1x1.Idx) :
    (outsAt0 m c t.val t.isLt).2.2.2.2.2 y = blkRay (fun i => sq (V m c main_v11 i) (V m c main_v10 i)) t.val := by
  rw [outsAt0_A m c t h0 h1]
  dsimp only
  exact (KPieces.sout_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) y).trans (blk2 m c t)

/-- At a middle point the accumulator ends at what the point before left plus the block's sum. -/
private theorem ptB2 (c : Dev nD) (t : Fin cfg0.N) (h0 : ¬t.val % 32 = 0) (h1 : ¬t.val % 32 = 31) (y : S1x1.Idx) :
    (outsAt0 m c t.val t.isLt).2.2.2.2.2 y = (outsAt0 m c (t.val - 1) (Nat.lt_of_le_of_lt (Nat.sub_le _ _) t.isLt)).2.2.2.2.2 y + blkRay (fun i => sq (V m c main_v11 i) (V m c main_v10 i)) t.val := by
  rw [outsAt0_B m c t h0 h1]
  dsimp only
  exact (KPieces.sout_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 y).trans (congrArg (fun z => _ + z) (blk2 m c t))

/-- At the last point the accumulator ends at what the point before left plus the block's sum, -/
private theorem ptC2 (c : Dev nD) (t : Fin cfg0.N) (h0 : ¬t.val % 32 = 0) (h1 : t.val % 32 = 31) (y : S1x1.Idx) :
    (outsAt0 m c t.val t.isLt).2.2.2.2.2 y = (outsAt0 m c (t.val - 1) (Nat.lt_of_le_of_lt (Nat.sub_le _ _) t.isLt)).2.2.2.2.2 y + blkRay (fun i => sq (V m c main_v11 i) (V m c main_v10 i)) t.val := by
  rw [outsAt0_C m c t h0 h1]
  dsimp only
  exact (KPieces.sout_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 y).trans (congrArg (fun z => _ + z) (blk2 m c t))

/-- and the output is a copy of it. -/
private theorem ptO2 (c : Dev nD) (t : Fin cfg0.N) (h0 : ¬t.val % 32 = 0) (h1 : t.val % 32 = 31) (y : S1x1.Idx) :
    (outsAt0 m c t.val t.isLt).2.2.1 y = (outsAt0 m c (t.val - 1) (Nat.lt_of_le_of_lt (Nat.sub_le _ _) t.isLt)).2.2.2.2.2 y + blkRay (fun i => sq (V m c main_v11 i) (V m c main_v10 i)) t.val := by
  rw [outsAt0_C m c t h0 h1]
  dsimp only
  exact (KPieces.out_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 y).trans (congrArg (fun z => _ + z) (blk2 m c t))

/-- The accumulator after point `n` is the sum of the first `n + 1` block sums: by induction on the point. -/
private theorem acc2 (c : Dev nD) (n : ℕ) : ∀ (hn : n < cfg0.N) (y : S1x1.Idx),
    (outsAt0 m c n hn).2.2.2.2.2 y = ∑ s ∈ Finset.range (n + 1), blkRay (fun i => sq (V m c main_v11 i) (V m c main_v10 i)) s := by
  induction n with
  | zero =>
    intro hn y
    rw [Finset.sum_range_one]
    exact ptA2 m c ⟨0, hn⟩ (Nat.zero_mod _) (by show ¬(0 : ℕ) % 32 = 31; decide) y
  | succ n ih =>
    intro hn y
    have hN : n + 1 < 32 := lt_of_lt_of_eq hn (show cfg0.N = 32 from N_0)
    have h0 : ¬(n + 1) % 32 = 0 := by omega
    rw [Finset.sum_range_succ, ← ih (Nat.lt_of_succ_lt hn) y]
    by_cases h1 : (n + 1) % 32 = 31
    · exact ptC2 m c ⟨n + 1, hn⟩ h0 h1 y
    · exact ptB2 m c ⟨n + 1, hn⟩ h0 h1 y

/-- At the last point the output holds the sum of all 32 block sums. -/
private theorem tot2 (c : Dev nD) (t : Fin cfg0.N) (h1 : t.val % 32 = 31) (y : S1x1.Idx) :
    (outsAt0 m c t.val t.isLt).2.2.1 y = ∑ s ∈ Finset.range 32, blkRay (fun i => sq (V m c main_v11 i) (V m c main_v10 i)) s := by
  have hN : t.val < 32 := lt_of_lt_of_eq t.isLt (show cfg0.N = 32 from N_0)
  have h0 : ¬t.val % 32 = 0 := by omega
  have ht : t.val = 31 := by omega
  have hp : t.val - 1 + 1 = 31 := by omega
  rw [ptO2 m c t h0 h1 y, acc2 m c (t.val - 1) _ y, hp, ht]
  exact (Finset.sum_range_succ _ 31).symm

/-- What the one write-back writes is the block of the constant array holding that total. -/
private theorem flushed8 (c : Dev nD) (t : Fin cfg0.N) (hf : (cfg0.win 8).flush t = true) :
    (dats m 0 c).flushed 8 t = ((cfg0.win 8).blk t).view.read (Elt Ideal)
      (fun _ => (∑ s ∈ Finset.range 32, blkRay (fun i => sq (V m c main_v11 i) (V m c main_v10 i)) s : EReal)) := by
  have h1 : t.val % 32 = 31 := (flush0_8 t).mp hf
  show (cfg0.win 8).cut (grid0.coords t) ((dats m 0 c).after 8 t) = _
  rw [after0_8]
  funext j
  rw [View.read_apply]
  exact tot2 m c t h1 _

/-- The last point's block is the whole 1×1 array. -/
private theorem cover8 (c : Dev nD) (i : ((cfg0.win 8).arr.view.loc (c.tc : Thread nD τ)).2.ty.Idx) :
    ∃ t : Fin cfg0.N, (cfg0.win 8).flush t = true ∧ i ∈ ((cfg0.win 8).blk t).view.set := by
  refine ⟨tLast, (flush0_8 tLast).mpr rfl, ?_⟩
  show i ∈ ((View.whole main_v12_2).slice (win0_8.rect tLast)).set
  rw [View.set_slice_whole, Rect.mem_set_unit]
  intro a
  have h0 : (i 0 : Nat) < 1 := (i 0).isLt
  have h1 : (i 1 : Nat) < 1 := (i 1).isLt
  match a with
  | ⟨0, _⟩ =>
    show win0_8.index tLast 0 * win0_8.size 0 ≤ (i 0 : Nat) ∧ (i 0 : Nat) < win0_8.index tLast 0 * win0_8.size 0 + win0_8.xsize (grid0.coords tLast) 0
    rw [show win0_8.index tLast 0 * win0_8.size 0 = 0 from by decide +kernel, show win0_8.xsize (grid0.coords tLast) 0 = 1 from by decide +kernel]; omega
  | ⟨1, _⟩ =>
    show win0_8.index tLast 1 * win0_8.size 1 ≤ (i 1 : Nat) ∧ (i 1 : Nat) < win0_8.index tLast 1 * win0_8.size 1 + win0_8.xsize (grid0.coords tLast) 1
    rw [show win0_8.index tLast 1 * win0_8.size 1 = 0 from by decide +kernel, show win0_8.xsize (grid0.coords tLast) 1 = 1 from by decide +kernel]; omega

/-- Output 6 ends at the scene colour error summed block by block over the two colour slabs. -/
theorem final6 (c : Dev nD) (y : S1x1.Idx) :
    (dats m 0 c).arrAt 6 cfg0.N y = ∑ t ∈ Finset.range 32, blkRgb (fun i => sq (V m c main_v6 i) (V m c main_v7 i)) t := by
  have h := (dats m 0 c).arrAt_eq_of_cover 6 (fun _ => (∑ s ∈ Finset.range 32, blkRgb (fun i => sq (V m c main_v6 i) (V m c main_v7 i)) s : EReal)) (flushed6 m c) (cover6 c)
  exact congrFun h y

/-- Output 7 ends at the mask-weighted object colour error summed block by block. -/
theorem final7 (c : Dev nD) (y : S1x1.Idx) :
    (dats m 0 c).arrAt 7 cfg0.N y = ∑ t ∈ Finset.range 32, blkRgb (fun i => wsq (V m c main_v9 i) (V m c main_v6 i) (V m c main_v8 i)) t := by
  have h := (dats m 0 c).arrAt_eq_of_cover 7 (fun _ => (∑ s ∈ Finset.range 32, blkRgb (fun i => wsq (V m c main_v9 i) (V m c main_v6 i) (V m c main_v8 i)) s : EReal)) (flushed7 m c) (cover7 c)
  exact congrFun h y

/-- Output 8 ends at the opacity error summed block by block over the two per-ray slabs. -/
theorem final8 (c : Dev nD) (y : S1x1.Idx) :
    (dats m 0 c).arrAt 8 cfg0.N y = ∑ t ∈ Finset.range 32, blkRay (fun i => sq (V m c main_v11 i) (V m c main_v10 i)) t := by
  have h := (dats m 0 c).arrAt_eq_of_cover 8 (fun _ => (∑ s ∈ Finset.range 32, blkRay (fun i => sq (V m c main_v11 i) (V m c main_v10 i)) s : EReal)) (flushed8 m c) (cover8 c)
  exact congrFun h y

end Cert.KernelIdeal.KValue

end
-- ==== Proof.KHost.lean ====
/-
  The kernel program's host operations around the region, read at the exact values.

  Before the region: the three colour arrays and the opacity are re-laid into lane-dense slabs, the ray mask is
  computed from the two integer arguments (1 where the gathered instance number equals 1), broadcast over the three
  channels and re-laid the same way. After the region: each of the three 1×1 totals becomes a scalar, is divided by the
  number of rays and weighted by 1.0, and the five results are assembled from them.
-/
import proofs.«135916_j29789893165394_2_alg».proof.Proof.Gen.KernelIdeal.Frame
import proofs.«135916_j29789893165394_2_alg».proof.Proof.LossSpec
import Idealize.ShloMosaic.Lib.StableHlo.Run
import Idealize.ShloMosaic.Lib.Pipeline.Value

set_option maxRecDepth 16384

noncomputable section

namespace Cert.KernelIdeal.KHost

open Idealize.ShloMosaic Idealize.ShloMosaic.TcCoe Idealize.SL.Sem Idealize.ShloMosaic.StableHlo
open Cert.KernelIdeal Cert.KernelIdeal.Gen Cert.LossSpec

/-- The ray mask as the host computes it from the pixel numbers `x4` and the instance table `x5`: 1.0 where the
    gathered instance number (negative pixel numbers wrapped once, out-of-range ones filled) equals 1, else 0.0. -/
def maskK (x4 : (⟨S1x4194304, .i32⟩ : BufTy).Contents (Elt Ideal)) (x5 : (⟨S1x1048576, .i32⟩ : BufTy).Contents (Elt Ideal)) : (⟨S1x4194304, .f32⟩ : BufTy).Contents (Elt Ideal) :=
  uitofp (F := Ideal) .f32 (cmpi .eq (select (broadcastInDim S1x4194304 ![1] bcast_S4194304_S1x4194304_1 (Host.reduce IntOp.andi (andi (cmpi .sge (shapeCast _ (select (cmpi .slt x4 (broadcastInDim S1x4194304 ![] bcast_S_S1x4194304 (constantI S_ 32 0#32))) (addi x4 (broadcastInDim S1x4194304 ![] bcast_S_S1x4194304 (constantI S_ 32 1048576#32))) x4) shapeCasts_S1x4194304_S4194304x1) (broadcastInDim S4194304x1 ![] bcast_S_S4194304x1 (constantI S_ 32 0#32))) (cmpi .sle (shapeCast _ (select (cmpi .slt x4 (broadcastInDim S1x4194304 ![] bcast_S_S1x4194304 (constantI S_ 32 0#32))) (addi x4 (broadcastInDim S1x4194304 ![] bcast_S_S1x4194304 (constantI S_ 32 1048576#32))) x4) shapeCasts_S1x4194304_S4194304x1) (broadcastInDim S4194304x1 ![0, 1] bcast_S1x1_S4194304x1_0_1 (broadcastInDim S1x1 ![1] bcast_S1_S1x1_1 (constantI S1 32 1048575#32))))) (constantI S_ 1 1#1) reducesTo_S4194304x1_S4194304_d1 h_S_)) (Host.gather gather_S1x1048576_S4194304x1_S1x4194304_0_1_n_n_1_1_11 x5 (shapeCast _ (select (cmpi .slt x4 (broadcastInDim S1x4194304 ![] bcast_S_S1x4194304 (constantI S_ 32 0#32))) (addi x4 (broadcastInDim S1x4194304 ![] bcast_S_S1x4194304 (constantI S_ 32 1048576#32))) x4) shapeCasts_S1x4194304_S4194304x1)) (broadcastInDim S1x4194304 ![] bcast_S_S1x4194304 (constantI S_ 32 2147483648#32))) (broadcastInDim S1x4194304 ![] bcast_S_S1x4194304 (constantI S_ 32 1#32)))

variable (m : (ℓ : Loc nD τ sig) → Buf (Elt Ideal) ℓ)

private theorem ofBuf_toBuf {Val : EltTy → Type} {T : BufTy} (x : TRef sig T) (v : T.Contents Val) : x.ofBuf (x.toBuf v) = v := by
  simp only [TRef.ofBuf, TRef.toBuf, cast_cast, cast_eq]

/-- The pixel numbers as gather indices: negative ones wrapped once, laid as a column. -/
private def idxK (x4 : (⟨S1x4194304, .i32⟩ : BufTy).Contents (Elt Ideal)) : (⟨S4194304x1, .i32⟩ : BufTy).Contents (Elt Ideal) :=
  shapeCast _ (select (cmpi .slt x4 (broadcastInDim S1x4194304 ![] bcast_S_S1x4194304 (constantI S_ 32 0#32))) (addi x4 (broadcastInDim S1x4194304 ![] bcast_S_S1x4194304 (constantI S_ 32 1048576#32))) x4) shapeCasts_S1x4194304_S4194304x1

/-- The gathered instance numbers, the fill value where the index is out of range. -/
private def takeFrom (i5 : (⟨S4194304x1, .i32⟩ : BufTy).Contents (Elt Ideal)) (x5 : (⟨S1x1048576, .i32⟩ : BufTy).Contents (Elt Ideal)) : (⟨S1x4194304, .i32⟩ : BufTy).Contents (Elt Ideal) :=
  select (broadcastInDim S1x4194304 ![1] bcast_S4194304_S1x4194304_1 (Host.reduce IntOp.andi (andi (cmpi .sge i5 (broadcastInDim S4194304x1 ![] bcast_S_S4194304x1 (constantI S_ 32 0#32))) (cmpi .sle i5 (broadcastInDim S4194304x1 ![0, 1] bcast_S1x1_S4194304x1_0_1 (broadcastInDim S1x1 ![1] bcast_S1_S1x1_1 (constantI S1 32 1048575#32))))) (constantI S_ 1 1#1) reducesTo_S4194304x1_S4194304_d1 h_S_)) (Host.gather gather_S1x1048576_S4194304x1_S1x4194304_0_1_n_n_1_1_11 x5 i5) (broadcastInDim S1x4194304 ![] bcast_S_S1x4194304 (constantI S_ 32 2147483648#32))

/-- 1.0 where the instance number is 1, else 0.0. -/
private def maskFrom (v0 : (⟨S1x4194304, .i32⟩ : BufTy).Contents (Elt Ideal)) : (⟨S1x4194304, .f32⟩ : BufTy).Contents (Elt Ideal) :=
  uitofp (F := Ideal) .f32 (cmpi .eq v0 (broadcastInDim S1x4194304 ![] bcast_S_S1x4194304 (constantI S_ 32 1#32)))

private theorem maskK_eq (x4 : (⟨S1x4194304, .i32⟩ : BufTy).Contents (Elt Ideal)) (x5 : (⟨S1x1048576, .i32⟩ : BufTy).Contents (Elt Ideal)) : maskK x4 x5 = maskFrom (takeFrom (idxK x4) x5) := by
  unfold maskK maskFrom takeFrom idxK
  rfl

private theorem after_append {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => simp only [List.cons_append, StableHlo.after_cons, ih]

/-- The lines before the region in three stretches: the index column, the gather, the mask and the re-layings. -/
private theorem pre_split : (List.flatten [hostOps0, hostOps0_1] : List (HloOp τ sig (Elt Ideal)))
    = hostOps0.take 8 ++ (hostOps0.drop 8 ++ hostOps0_1) := by
  rw [← List.append_assoc, List.take_append_drop]
  simp only [List.flatten_cons, List.flatten_nil, List.append_nil]

private theorem stage_idx (W : Valuation τ sig (Elt Ideal)) :
    StableHlo.after ((hostOps0 : List (HloOp τ sig (Elt Ideal))).take 8) W (Proc.devRef .tc main_call0_v5) = idxK (W (Proc.devRef .tc main_arg4)) := by
  simp only [hostOps0, List.take_succ_cons, List.take_zero]
  after_results_simp
  rfl

private theorem stage_idx_arg5 (W : Valuation τ sig (Elt Ideal)) :
    StableHlo.after ((hostOps0 : List (HloOp τ sig (Elt Ideal))).take 8) W (Proc.devRef .tc main_arg5) = W (Proc.devRef .tc main_arg5) := by
  simp only [hostOps0, List.take_succ_cons, List.take_zero]
  after_results_simp

private theorem stage_take (W : Valuation τ sig (Elt Ideal)) :
    StableHlo.after ((hostOps0 : List (HloOp τ sig (Elt Ideal))).drop 8) W (Proc.devRef .tc main_v0)
      = takeFrom (W (Proc.devRef .tc main_call0_v5)) (W (Proc.devRef .tc main_arg5)) := by
  simp only [hostOps0, List.drop_succ_cons, List.drop_zero]
  after_results_simp
  simp only [ofBuf_toBuf]
  refine (cast_eq _ _).trans ?_
  rfl

private theorem stage_v11 (W : Valuation τ sig (Elt Ideal)) :
    StableHlo.after (hostOps0_1 : List (HloOp τ sig (Elt Ideal))) W (Proc.devRef .tc main_v11)
      = shapeCast S8192x512 (maskFrom (W (Proc.devRef .tc main_v0))) shapeCasts_S1x4194304_S8192x512 := by
  simp only [hostOps0_1]
  after_results_simp
  rfl

private theorem stage_v9 (W : Valuation τ sig (Elt Ideal)) :
    StableHlo.after (hostOps0_1 : List (HloOp τ sig (Elt Ideal))) W (Proc.devRef .tc main_v9)
      = shapeCast S24576x512 (broadcastInDim S1x4194304x3 ![0, 1, 2] bcast_S1x4194304x1_S1x4194304x3_0_1_2 (broadcastInDim S1x4194304x1 ![0, 1] bcast_S1x4194304_S1x4194304x1_0_1 (maskFrom (W (Proc.devRef .tc main_v0))))) shapeCasts_S1x4194304x3_S24576x512 := by
  simp only [hostOps0_1]
  after_results_simp
  rfl

/-- The slabs the region finds: each a re-laying of an argument array. -/
theorem V_v6 (c : Dev nD) : V m c main_v6 = shapeCast S24576x512 (m ((c.tc : Thread nD τ).loc main_arg0)) shapeCasts_S1x4194304x3_S24576x512 := by
  dsimp only [Gen.V, Gen.V0]
  simp only [hostOps0, hostOps0_1, List.flatten_cons, List.flatten_nil, List.append_nil, List.cons_append, List.nil_append]
  after_results
  rfl
theorem V_v7 (c : Dev nD) : V m c main_v7 = shapeCast S24576x512 (m ((c.tc : Thread nD τ).loc main_arg1)) shapeCasts_S1x4194304x3_S24576x512 := by
  dsimp only [Gen.V, Gen.V0]
  simp only [hostOps0, hostOps0_1, List.flatten_cons, List.flatten_nil, List.append_nil, List.cons_append, List.nil_append]
  after_results
  rfl
theorem V_v8 (c : Dev nD) : V m c main_v8 = shapeCast S24576x512 (m ((c.tc : Thread nD τ).loc main_arg2)) shapeCasts_S1x4194304x3_S24576x512 := by
  dsimp only [Gen.V, Gen.V0]
  simp only [hostOps0, hostOps0_1, List.flatten_cons, List.flatten_nil, List.append_nil, List.cons_append, List.nil_append]
  after_results
  rfl
theorem V_v10 (c : Dev nD) : V m c main_v10 = shapeCast S8192x512 (m ((c.tc : Thread nD τ).loc main_arg3)) shapeCasts_S1x4194304_S8192x512 := by
  dsimp only [Gen.V, Gen.V0]
  simp only [hostOps0, hostOps0_1, List.flatten_cons, List.flatten_nil, List.append_nil, List.cons_append, List.nil_append]
  after_results
  rfl
/-- The mask slab over rays. -/
theorem V_v11 (c : Dev nD) : V m c main_v11 = shapeCast S8192x512 (maskK (m ((c.tc : Thread nD τ).loc main_arg4)) (m ((c.tc : Thread nD τ).loc main_arg5))) shapeCasts_S1x4194304_S8192x512 := by
  dsimp only [Gen.V, Gen.V0]
  rw [pre_split, after_append, after_append, stage_v11, stage_take, stage_idx, stage_idx_arg5, maskK_eq]
/-- The mask slab over rays and channels: the mask broadcast along the channel axis, re-laid. -/
theorem V_v9 (c : Dev nD) : V m c main_v9 = shapeCast S24576x512 (broadcastInDim S1x4194304x3 ![0, 1, 2] bcast_S1x4194304x1_S1x4194304x3_0_1_2 (broadcastInDim S1x4194304x1 ![0, 1] bcast_S1x4194304_S1x4194304x1_0_1 (maskK (m ((c.tc : Thread nD τ).loc main_arg4)) (m ((c.tc : Thread nD τ).loc main_arg5))))) shapeCasts_S1x4194304x3_S24576x512 := by
  dsimp only [Gen.V, Gen.V0]
  rw [pre_split, after_append, after_append, stage_v9, stage_take, stage_idx, stage_idx_arg5, maskK_eq]

/-- The five results after the lines that follow the region, from the region's three final arrays. -/
theorem tail_loss (c : Dev nD) : Pipeline.afterTail₀ cfgs (dats m) 0 (V0 m) [hostOps1, hostOps1_1, hostOps1_2, hostOps1_3, hostOps1_4, hostOps1_5, hostOps1_6, hostOps1_7] c main_v34 = kLoss (shapeCast S_ ((dats m 0 c).arrAt 6 cfg0.N) shapeCasts_S1x1_S_) (shapeCast S_ ((dats m 0 c).arrAt 7 cfg0.N) shapeCasts_S1x1_S_) (shapeCast S_ ((dats m 0 c).arrAt 8 cfg0.N) shapeCasts_S1x1_S_) := by
  unfold Pipeline.afterTail₀
  simp only [hostOps1, hostOps1_1, hostOps1_2, hostOps1_3, hostOps1_4, hostOps1_5, hostOps1_6, hostOps1_7, List.flatten_cons, List.flatten_nil, List.append_nil, List.cons_append, List.nil_append]
  after_results_simp
  have h6 : Pipeline.withArrays (cfgs 0).spec c (V0 m c) (fun w => (dats m 0 c).arrAt w (cfgs 0).N) (Proc.devRef .tc main_v12_0) = (dats m 0 c).arrAt 6 cfg0.N := Pipeline.withArrays_arr spec0 launch0.win.arr_inj c _ _ 6
  have h7 : Pipeline.withArrays (cfgs 0).spec c (V0 m c) (fun w => (dats m 0 c).arrAt w (cfgs 0).N) (Proc.devRef .tc main_v12_1) = (dats m 0 c).arrAt 7 cfg0.N := Pipeline.withArrays_arr spec0 launch0.win.arr_inj c _ _ 7
  have h8 : Pipeline.withArrays (cfgs 0).spec c (V0 m c) (fun w => (dats m 0 c).arrAt w (cfgs 0).N) (Proc.devRef .tc main_v12_2) = (dats m 0 c).arrAt 8 cfg0.N := Pipeline.withArrays_arr spec0 launch0.win.arr_inj c _ _ 8
  rw [h6, h7, h8]
  unfold kLoss kColor kOpac oneMul meanArr
  rfl
theorem tail_color (c : Dev nD) : Pipeline.afterTail₀ cfgs (dats m) 0 (V0 m) [hostOps1, hostOps1_1, hostOps1_2, hostOps1_3, hostOps1_4, hostOps1_5, hostOps1_6, hostOps1_7] c main_v22 = kColor (shapeCast S_ ((dats m 0 c).arrAt 6 cfg0.N) shapeCasts_S1x1_S_) (shapeCast S_ ((dats m 0 c).arrAt 7 cfg0.N) shapeCasts_S1x1_S_) := by
  unfold Pipeline.afterTail₀
  simp only [hostOps1, hostOps1_1, hostOps1_2, hostOps1_3, hostOps1_4, hostOps1_5, hostOps1_6, hostOps1_7, List.flatten_cons, List.flatten_nil, List.append_nil, List.cons_append, List.nil_append]
  after_results_simp
  have h6 : Pipeline.withArrays (cfgs 0).spec c (V0 m c) (fun w => (dats m 0 c).arrAt w (cfgs 0).N) (Proc.devRef .tc main_v12_0) = (dats m 0 c).arrAt 6 cfg0.N := Pipeline.withArrays_arr spec0 launch0.win.arr_inj c _ _ 6
  have h7 : Pipeline.withArrays (cfgs 0).spec c (V0 m c) (fun w => (dats m 0 c).arrAt w (cfgs 0).N) (Proc.devRef .tc main_v12_1) = (dats m 0 c).arrAt 7 cfg0.N := Pipeline.withArrays_arr spec0 launch0.win.arr_inj c _ _ 7
  rw [h6, h7]
  unfold kColor oneMul meanArr
  rfl
theorem tail_opac (c : Dev nD) : Pipeline.afterTail₀ cfgs (dats m) 0 (V0 m) [hostOps1, hostOps1_1, hostOps1_2, hostOps1_3, hostOps1_4, hostOps1_5, hostOps1_6, hostOps1_7] c main_v33 = kOpac (shapeCast S_ ((dats m 0 c).arrAt 8 cfg0.N) shapeCasts_S1x1_S_) := by
  unfold Pipeline.afterTail₀
  simp only [hostOps1, hostOps1_1, hostOps1_2, hostOps1_3, hostOps1_4, hostOps1_5, hostOps1_6, hostOps1_7, List.flatten_cons, List.flatten_nil, List.append_nil, List.cons_append, List.nil_append]
  after_results_simp
  have h8 : Pipeline.withArrays (cfgs 0).spec c (V0 m c) (fun w => (dats m 0 c).arrAt w (cfgs 0).N) (Proc.devRef .tc main_v12_2) = (dats m 0 c).arrAt 8 cfg0.N := Pipeline.withArrays_arr spec0 launch0.win.arr_inj c _ _ 8
  rw [h8]
  unfold kOpac oneMul meanArr
  rfl
theorem tail_psnr_scn (c : Dev nD) : Pipeline.afterTail₀ cfgs (dats m) 0 (V0 m) [hostOps1, hostOps1_1, hostOps1_2, hostOps1_3, hostOps1_4, hostOps1_5, hostOps1_6, hostOps1_7] c main_v30 = kPsnr (shapeCast S_ ((dats m 0 c).arrAt 6 cfg0.N) shapeCasts_S1x1_S_) := by
  unfold Pipeline.afterTail₀
  simp only [hostOps1, hostOps1_1, hostOps1_2, hostOps1_3, hostOps1_4, hostOps1_5, hostOps1_6, hostOps1_7, List.flatten_cons, List.flatten_nil, List.append_nil, List.cons_append, List.nil_append]
  after_results_simp
  simp only [ofBuf_toBuf]
  have h6 : Pipeline.withArrays (cfgs 0).spec c (V0 m c) (fun w => (dats m 0 c).arrAt w (cfgs 0).N) (Proc.devRef .tc main_v12_0) = (dats m 0 c).arrAt 6 cfg0.N := Pipeline.withArrays_arr spec0 launch0.win.arr_inj c _ _ 6
  rw [h6]
  refine (cast_eq _ _).trans ?_
  unfold kPsnr psnrArr oneMul meanArr
  rfl
theorem tail_psnr_obj (c : Dev nD) : Pipeline.afterTail₀ cfgs (dats m) 0 (V0 m) [hostOps1, hostOps1_1, hostOps1_2, hostOps1_3, hostOps1_4, hostOps1_5, hostOps1_6, hostOps1_7] c main_v32 = kPsnr (shapeCast S_ ((dats m 0 c).arrAt 7 cfg0.N) shapeCasts_S1x1_S_) := by
  unfold Pipeline.afterTail₀
  simp only [hostOps1, hostOps1_1, hostOps1_2, hostOps1_3, hostOps1_4, hostOps1_5, hostOps1_6, hostOps1_7, List.flatten_cons, List.flatten_nil, List.append_nil, List.cons_append, List.nil_append]
  after_results_simp
  simp only [ofBuf_toBuf]
  have h7 : Pipeline.withArrays (cfgs 0).spec c (V0 m c) (fun w => (dats m 0 c).arrAt w (cfgs 0).N) (Proc.devRef .tc main_v12_1) = (dats m 0 c).arrAt 7 cfg0.N := Pipeline.withArrays_arr spec0 launch0.win.arr_inj c _ _ 7
  rw [h7]
  refine (cast_eq _ _).trans ?_
  unfold kPsnr psnrArr oneMul meanArr
  rfl

end Cert.KernelIdeal.KHost

end
-- ==== Proof.SumLaws.lean ====
/-
  Laws of finite sums over the extended reals that join two arrangements of one sum of squares.

  A re-laying of an array keeps every element's row-major position, so a total over the re-laid index set is the
  total over the original one; a colour array's index set is rays times channels; a slab's rows split into 32 blocks.
  Squares are nonnegative on the extended reals, and on nonnegative terms multiplication by a fixed factor
  distributes over addition, which is what lets a mean of a sum be split and a 0/1 weight be moved inside a
  channel sum without any finiteness assumption.
-/
import proofs.«135916_j29789893165394_2_alg».proof.Proof.LossSpec
import Mathlib

noncomputable section

open scoped BigOperators

namespace Cert.SumLaws

open Idealize.ShloMosaic Idealize.ShloMosaic.ValueIdx Cert.LossSpec

/-- A colour index is a ray index together with a channel. -/
private def rgbEquiv : Ray.Idx × Fin 3 ≃ Rgb.Idx where
  toFun p := rayCh p.1 p.2
  invFun k := (ix2 (n0 := 1) (n1 := 4194304) (k 0) (k 1), k 2)
  left_inv p := by
    obtain ⟨j, c⟩ := p
    exact Prod.ext (eq_ix2 j).symm rfl
  right_inv k := (eq_ix3 k).symm

/-- Rows numbered `t * n + p`, with `t` below `m` and `p` below `n`, are all the `m * n` rows, once each. -/
private theorem sum_blocks {M : Type} [AddCommMonoid M] (m n N : ℕ) (hN : m * n = N) (F : Fin N → M) :
    ∑ a, F a = ∑ t : Fin m, ∑ p : Fin n, F ⟨t.val * n + p.val, by
      have h1 : t.val + 1 ≤ m := t.isLt
      have h2 := Nat.mul_le_mul_right n h1
      have h3 := p.isLt
      rw [Nat.add_mul, Nat.one_mul] at h2
      omega⟩ := by
  subst hN
  rw [← Equiv.sum_comp finProdFinEquiv F, Fintype.sum_prod_type]
  refine Finset.sum_congr rfl fun t _ => Finset.sum_congr rfl fun p _ => ?_
  congr 1
  refine Fin.ext ?_
  simp only [finProdFinEquiv_apply_val]
  rw [Nat.mul_comm, Nat.add_comm]

/-- A 0/1 weight times a sum is the sum of the weighted terms. -/
private theorem weight_sum {K : Type} [Fintype K] (x : EReal) (hx : x = 0 ∨ x = 1) (b : K → EReal) :
    x * ∑ k, b k = ∑ k, x * b k := by
  rcases hx with h | h
  · subst h; simp only [zero_mul, Finset.sum_const_zero]
  · subst h; simp only [one_mul]

/-- A squared difference is nonnegative, at the infinities too. -/
theorem sq_nonneg (a b : EReal) : 0 ≤ sq a b := by
  unfold Cert.LossSpec.sq
  generalize a - b = d
  induction d using EReal.rec with
  | bot => rw [EReal.bot_mul_bot]; exact le_top
  | top => rw [EReal.top_mul_top]; exact le_top
  | coe r => rw [← EReal.coe_mul]; exact EReal.coe_nonneg.mpr (mul_self_nonneg r)

/-- The word of 1.0 is the real 1. -/
theorem one_eq : wOne = (1 : EReal) := by
  show Ideal.ofBits .f32 0x3F800000#32 = 1
  simp [Ideal.ofBits, Ideal.ieee, -EReal.coe_mul]; norm_num

/-- The word of 0.0 is 0. -/
theorem z_eq : wZero = (0 : EReal) := Ideal.ofBits_zero_f32

/-- The word 0x4A800000 is 2^22. -/
theorem nr_eq : wN = ((4194304 : ℝ) : EReal) := by
  show Ideal.ofBits .f32 0x4A800000#32 = ((4194304 : ℝ) : EReal)
  simp [Ideal.ofBits, Ideal.ieee, -EReal.coe_mul]; norm_num

/-- A total over a re-laid array is the total over the array. -/
theorem sum_shapeCast {s t : Shape} {M : Type} [AddCommMonoid M] (h : s.ShapeCasts t) (g : s.Idx → M) :
    ∑ j : t.Idx, shapeCast t g h j = ∑ k : s.Idx, g k := by
  unfold shapeCast
  exact Equiv.sum_comp (Shape.reshapeEquiv h) g

/-- A colour array's total is the sum over rays of the sum over the three channels. -/
theorem sum_rgb {M : Type} [AddCommMonoid M] (g : Rgb.Idx → M) :
    ∑ k : Rgb.Idx, g k = ∑ j : Ray.Idx, ∑ c : Fin 3, g (rayCh j c) := by
  rw [← Equiv.sum_comp rgbEquiv g, Fintype.sum_prod_type]
  rfl

/-- The 32 blocks of 768 rows tile a colour slab. -/
theorem sum_blkRgb (f : SlabRgb.Idx → EReal) : ∑ t ∈ Finset.range 32, blkRgb f t = ∑ i, f i := by
  rw [sum_idx2 f, sum_blocks 32 768 24576 (by norm_num) (fun a => ∑ b : Fin 512, f (ix2 a b)), Finset.sum_range]
  refine Finset.sum_congr rfl fun t _ => ?_
  rw [blkRgb, dif_pos t.isLt]

/-- The 32 blocks of 256 rows tile a per-ray slab. -/
theorem sum_blkRay (f : SlabRay.Idx → EReal) : ∑ t ∈ Finset.range 32, blkRay f t = ∑ i, f i := by
  rw [sum_idx2 f, sum_blocks 32 256 8192 (by norm_num) (fun a => ∑ b : Fin 512, f (ix2 a b)), Finset.sum_range]
  refine Finset.sum_congr rfl fun t _ => ?_
  rw [blkRay, dif_pos t.isLt]

section Laws

variable {J K : Type} [Fintype J] [Fintype K]

/-- The mean of the per-ray scene errors is the mean of the total. -/
theorem scn_law (a : J → K → EReal) :
    Ideal.div (wZero + ∑ j, wOne * (wZero + ∑ k, a j k)) wN = wOne * Ideal.div (∑ j, ∑ k, a j k) wN := by
  simp only [z_eq, one_eq, zero_add, one_mul]

/-- A 0/1 weight moves inside the channel sum. -/
theorem obj_law (b : J → K → EReal) (w : J → EReal) (hw : ∀ j, w j = 0 ∨ w j = 1) :
    Ideal.div (wZero + ∑ j, (wOne * w j) * (wZero + ∑ k, b j k)) wN = wOne * Ideal.div (∑ j, ∑ k, w j * b j k) wN := by
  simp only [z_eq, one_eq, zero_add, one_mul]
  congr 1
  exact Finset.sum_congr rfl fun j _ => weight_sum (w j) (hw j) (b j)

/-- The mean of the per-ray opacity errors. -/
theorem op_law (d : J → EReal) :
    Ideal.div (wZero + ∑ j, wOne * d j) wN = wOne * Ideal.div (∑ j, d j) wN := by
  simp only [z_eq, one_eq, zero_add, one_mul]

/-- The mean of the sum of the two colour errors is the sum of their means: nonnegative terms. -/
theorem color_law (a b : J → K → EReal) (w : J → EReal) (ha : ∀ j k, 0 ≤ a j k) (hb : ∀ j k, 0 ≤ b j k)
    (hw : ∀ j, w j = 0 ∨ w j = 1) :
    Ideal.div (wZero + ∑ j, (wOne * (wOne * (wZero + ∑ k, a j k)) + (wOne * w j) * (wZero + ∑ k, b j k))) wN
      = wOne * (wOne * Ideal.div (∑ j, ∑ k, a j k) wN) + wOne * Ideal.div (∑ j, ∑ k, w j * b j k) wN := by
  simp only [z_eq, one_eq, zero_add, one_mul]
  have hwb : ∀ j k, 0 ≤ w j * b j k := by
    intro j k
    rcases hw j with h | h
    · rw [h, zero_mul]
    · rw [h, one_mul]; exact hb j k
  have hA : 0 ≤ ∑ j, ∑ k, a j k := Finset.sum_nonneg fun j _ => Finset.sum_nonneg fun k _ => ha j k
  have hB : 0 ≤ ∑ j, ∑ k, w j * b j k := Finset.sum_nonneg fun j _ => Finset.sum_nonneg fun k _ => hwb j k
  have hsum : ∑ j, (∑ k, a j k + w j * ∑ k, b j k) = ∑ j, ∑ k, a j k + ∑ j, ∑ k, w j * b j k := by
    rw [← Finset.sum_add_distrib]
    exact Finset.sum_congr rfl fun j _ => by rw [weight_sum (w j) (hw j) (b j)]
  rw [hsum, nr_eq, Ideal.div_coe (by norm_num : (4194304 : ℝ) ≠ 0), Ideal.div_coe (by norm_num : (4194304 : ℝ) ≠ 0),
    Ideal.div_coe (by norm_num : (4194304 : ℝ) ≠ 0)]
  exact EReal.right_distrib_of_nonneg hA hB

end Laws

end Cert.SumLaws

end
-- ==== Proof.KRun.lean ====
/-
  The kernel program's run at the exact values: its five results as functions of the argument arrays.

  The region's three 1×1 outputs end at the three slab totals (block sums added over the 32 blocks, which tile each
  slab); the lines after the region turn them into the five results; the slabs the region reads are re-layings of
  the arguments and of the ray mask.
-/
import proofs.«135916_j29789893165394_2_alg».proof.Proof.KValue
import proofs.«135916_j29789893165394_2_alg».proof.Proof.KHost
import proofs.«135916_j29789893165394_2_alg».proof.Proof.SumLaws

set_option maxRecDepth 16384

noncomputable section

open scoped BigOperators

namespace Cert.KernelIdeal.KRun

open Idealize.ShloMosaic Idealize.ShloMosaic.TcCoe Idealize.SL.Sem Idealize.ShloMosaic.ValueIdx
open Cert.KernelIdeal Cert.KernelIdeal.Gen Cert.LossSpec Cert.SumLaws

variable (m : (ℓ : Loc nD τ sig) → Buf (Elt Ideal) ℓ) (ρ : Dev nD → PrngReg)

/-- A 1×1 array constant at `x`, read as a scalar, is the scalar `x`. -/
theorem scal_of_const (a : S1x1.Idx → EReal) (x : EReal) (h : ∀ y, a y = x) :
    shapeCast S_ a shapeCasts_S1x1_S_ = scal x := by
  funext j
  unfold shapeCast scal
  exact h _

/-- Output 6 read as a scalar: the scene total over the two colour slabs. -/
theorem out6 (c : Dev nD) :
    shapeCast S_ ((dats m 0 c).arrAt 6 cfg0.N) shapeCasts_S1x1_S_ = scal (sumScn (shapeCast S24576x512 (m ((c.tc : Thread nD τ).loc main_arg0)) shapeCasts_S1x4194304x3_S24576x512) (shapeCast S24576x512 (m ((c.tc : Thread nD τ).loc main_arg1)) shapeCasts_S1x4194304x3_S24576x512)) := by
  refine scal_of_const _ _ fun y => ?_
  rw [KValue.final6 m c y, sum_blkRgb, KHost.V_v6 m c, KHost.V_v7 m c]
  rfl

/-- Output 7 read as a scalar: the mask-weighted object total. -/
theorem out7 (c : Dev nD) :
    shapeCast S_ ((dats m 0 c).arrAt 7 cfg0.N) shapeCasts_S1x1_S_ = scal (sumObj (shapeCast S24576x512 (m ((c.tc : Thread nD τ).loc main_arg0)) shapeCasts_S1x4194304x3_S24576x512) (shapeCast S24576x512 (m ((c.tc : Thread nD τ).loc main_arg2)) shapeCasts_S1x4194304x3_S24576x512) (shapeCast S24576x512 (broadcastInDim S1x4194304x3 ![0, 1, 2] bcast_S1x4194304x1_S1x4194304x3_0_1_2 (broadcastInDim S1x4194304x1 ![0, 1] bcast_S1x4194304_S1x4194304x1_0_1 (KHost.maskK (m ((c.tc : Thread nD τ).loc main_arg4)) (m ((c.tc : Thread nD τ).loc main_arg5))))) shapeCasts_S1x4194304x3_S24576x512)) := by
  refine scal_of_const _ _ fun y => ?_
  rw [KValue.final7 m c y, sum_blkRgb, KHost.V_v6 m c, KHost.V_v8 m c, KHost.V_v9 m c]
  rfl

/-- Output 8 read as a scalar: the opacity total over the two per-ray slabs. -/
theorem out8 (c : Dev nD) :
    shapeCast S_ ((dats m 0 c).arrAt 8 cfg0.N) shapeCasts_S1x1_S_ = scal (sumOp (shapeCast S8192x512 (m ((c.tc : Thread nD τ).loc main_arg3)) shapeCasts_S1x4194304_S8192x512) (shapeCast S8192x512 (KHost.maskK (m ((c.tc : Thread nD τ).loc main_arg4)) (m ((c.tc : Thread nD τ).loc main_arg5))) shapeCasts_S1x4194304_S8192x512)) := by
  refine scal_of_const _ _ fun y => ?_
  rw [KValue.final8 m c y, sum_blkRay, KHost.V_v10 m c, KHost.V_v11 m c]
  rfl

/-- Every weakly fair execution of the kernel program terminates with the five results at the loss functions of the
    three slab totals, and the arguments unchanged. -/
theorem run : θ_run defs (onTc (τ := τ) (main (F := Ideal))) ⟨m, fun _ => 0, ρ⟩ (fun r => ∀ c : Dev nD,
      r.2.mem ((c.tc : Thread nD τ).loc main_v34) = kLoss (scal (sumScn (shapeCast S24576x512 (m ((c.tc : Thread nD τ).loc main_arg0)) shapeCasts_S1x4194304x3_S24576x512) (shapeCast S24576x512 (m ((c.tc : Thread nD τ).loc main_arg1)) shapeCasts_S1x4194304x3_S24576x512))) (scal (sumObj (shapeCast S24576x512 (m ((c.tc : Thread nD τ).loc main_arg0)) shapeCasts_S1x4194304x3_S24576x512) (shapeCast S24576x512 (m ((c.tc : Thread nD τ).loc main_arg2)) shapeCasts_S1x4194304x3_S24576x512) (shapeCast S24576x512 (broadcastInDim S1x4194304x3 ![0, 1, 2] bcast_S1x4194304x1_S1x4194304x3_0_1_2 (broadcastInDim S1x4194304x1 ![0, 1] bcast_S1x4194304_S1x4194304x1_0_1 (KHost.maskK (m ((c.tc : Thread nD τ).loc main_arg4)) (m ((c.tc : Thread nD τ).loc main_arg5))))) shapeCasts_S1x4194304x3_S24576x512))) (scal (sumOp (shapeCast S8192x512 (m ((c.tc : Thread nD τ).loc main_arg3)) shapeCasts_S1x4194304_S8192x512) (shapeCast S8192x512 (KHost.maskK (m ((c.tc : Thread nD τ).loc main_arg4)) (m ((c.tc : Thread nD τ).loc main_arg5))) shapeCasts_S1x4194304_S8192x512)))
      ∧ r.2.mem ((c.tc : Thread nD τ).loc main_v22) = kColor (scal (sumScn (shapeCast S24576x512 (m ((c.tc : Thread nD τ).loc main_arg0)) shapeCasts_S1x4194304x3_S24576x512) (shapeCast S24576x512 (m ((c.tc : Thread nD τ).loc main_arg1)) shapeCasts_S1x4194304x3_S24576x512))) (scal (sumObj (shapeCast S24576x512 (m ((c.tc : Thread nD τ).loc main_arg0)) shapeCasts_S1x4194304x3_S24576x512) (shapeCast S24576x512 (m ((c.tc : Thread nD τ).loc main_arg2)) shapeCasts_S1x4194304x3_S24576x512) (shapeCast S24576x512 (broadcastInDim S1x4194304x3 ![0, 1, 2] bcast_S1x4194304x1_S1x4194304x3_0_1_2 (broadcastInDim S1x4194304x1 ![0, 1] bcast_S1x4194304_S1x4194304x1_0_1 (KHost.maskK (m ((c.tc : Thread nD τ).loc main_arg4)) (m ((c.tc : Thread nD τ).loc main_arg5))))) shapeCasts_S1x4194304x3_S24576x512)))
      ∧ r.2.mem ((c.tc : Thread nD τ).loc main_v33) = kOpac (scal (sumOp (shapeCast S8192x512 (m ((c.tc : Thread nD τ).loc main_arg3)) shapeCasts_S1x4194304_S8192x512) (shapeCast S8192x512 (KHost.maskK (m ((c.tc : Thread nD τ).loc main_arg4)) (m ((c.tc : Thread nD τ).loc main_arg5))) shapeCasts_S1x4194304_S8192x512)))
      ∧ r.2.mem ((c.tc : Thread nD τ).loc main_v30) = kPsnr (scal (sumScn (shapeCast S24576x512 (m ((c.tc : Thread nD τ).loc main_arg0)) shapeCasts_S1x4194304x3_S24576x512) (shapeCast S24576x512 (m ((c.tc : Thread nD τ).loc main_arg1)) shapeCasts_S1x4194304x3_S24576x512)))
      ∧ r.2.mem ((c.tc : Thread nD τ).loc main_v32) = kPsnr (scal (sumObj (shapeCast S24576x512 (m ((c.tc : Thread nD τ).loc main_arg0)) shapeCasts_S1x4194304x3_S24576x512) (shapeCast S24576x512 (m ((c.tc : Thread nD τ).loc main_arg2)) shapeCasts_S1x4194304x3_S24576x512) (shapeCast S24576x512 (broadcastInDim S1x4194304x3 ![0, 1, 2] bcast_S1x4194304x1_S1x4194304x3_0_1_2 (broadcastInDim S1x4194304x1 ![0, 1] bcast_S1x4194304_S1x4194304x1_0_1 (KHost.maskK (m ((c.tc : Thread nD τ).loc main_arg4)) (m ((c.tc : Thread nD τ).loc main_arg5))))) shapeCasts_S1x4194304x3_S24576x512)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨((h c).2 main_v34 (Pipeline.mem_restRefs_of main_v34 (by decide) (by decide))).trans
        (by rw [KHost.tail_loss m c, out6 m c, out7 m c, out8 m c]),
     ((h c).2 main_v22 (Pipeline.mem_restRefs_of main_v22 (by decide) (by decide))).trans
        (by rw [KHost.tail_color m c, out6 m c, out7 m c]),
     ((h c).2 main_v33 (Pipeline.mem_restRefs_of main_v33 (by decide) (by decide))).trans
        (by rw [KHost.tail_opac m c, out8 m c]),
     ((h c).2 main_v30 (Pipeline.mem_restRefs_of main_v30 (by decide) (by decide))).trans
        (by rw [KHost.tail_psnr_scn m c, out6 m c]),
     ((h c).2 main_v32 (Pipeline.mem_restRefs_of main_v32 (by decide) (by decide))).trans
        (by rw [KHost.tail_psnr_obj m c, out7 m c]),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.KernelIdeal.KRun

end
-- ==== Proof.RefRead.lean ====
/-
  The reference's five results at the exact values, each as one explicit expression of the argument arrays.

  Per ray the reference sums the squared colour differences over the three channels; the colour loss is the mean over
  rays of the scene error plus the mask-weighted object error; the opacity loss is the mean of the squared difference
  of mask and opacity; the total loss is their sum; the two signal-to-noise figures are taken of the two colour means.
  The ray mask is 1 where the gathered instance number equals 1 and 0 elsewhere.
-/
import proofs.«135916_j29789893165394_2_alg».proof.Proof.RefReadP
import proofs.«135916_j29789893165394_2_alg».proof.Proof.LossSpec

noncomputable section

open scoped BigOperators

namespace Cert.ReferenceIdeal.RefRead

open Idealize.ShloMosaic Idealize.ShloMosaic.TcCoe Idealize.SL.Sem Idealize.ShloMosaic.ValueIdx
open Cert.ReferenceIdeal Cert.ReferenceIdeal.ReadP Cert.LossSpec

/-- The composed index of a channel sum is ray `j`'s channel `k`. -/
private theorem idx6_eq (j : S1x4194304.Idx) (k : Fin 3) : idx_main_v6 j k = rayCh j k :=
  funext fun a => Fin.ext (by match a with | ⟨0, _⟩ => rfl | ⟨1, _⟩ => rfl | ⟨2, _⟩ => rfl)

private theorem idx13_eq (j : S1x4194304.Idx) (k : Fin 3) : idx_main_v13 j k = rayCh j k :=
  funext fun a => Fin.ext (by match a with | ⟨0, _⟩ => rfl | ⟨1, _⟩ => rfl | ⟨2, _⟩ => rfl)

/-- The weighted scene error of one ray. -/
private theorem v8_at (x0 x1 : (⟨S1x4194304x3, .f32⟩ : BufTy).Contents (Elt Ideal)) (j : S1x4194304.Idx) :
    val_main_v8 (F := Ideal) x0 x1 j = wOne * (wZero + ∑ k : Fin 3, sq (x0 (rayCh j k)) (x1 (rayCh j k))) := by
  rw [val_main_v8_apply, val_main_v7_apply, val_main_cst_0_apply, val_main_v6_apply, val_main_cst_apply]
  simp only [val_main_v5_apply, val_main_v4_apply, idx6_eq, Ideal.mulf_def, Ideal.subf_def, Ideal.ofBits_def]
  rfl

/-- The mask-weighted object error of one ray. -/
private theorem v14_at (x0 x2 : (⟨S1x4194304x3, .f32⟩ : BufTy).Contents (Elt Ideal)) (x4 : (⟨S1x4194304, .i32⟩ : BufTy).Contents (Elt Ideal)) (x5 : (⟨S1x1048576, .i32⟩ : BufTy).Contents (Elt Ideal)) (j : S1x4194304.Idx) :
    val_main_v14 (F := Ideal) x0 x2 x4 x5 j
      = (wOne * val_main_v3 (F := Ideal) x4 x5 j) * (wZero + ∑ k : Fin 3, sq (x0 (rayCh j k)) (x2 (rayCh j k))) := by
  rw [val_main_v14_apply, val_main_v10_apply, val_main_v9_apply, val_main_cst_1_apply, val_main_v13_apply, val_main_cst_2_apply]
  simp only [val_main_v12_apply, val_main_v11_apply, idx13_eq, Ideal.mulf_def, Ideal.subf_def, Ideal.ofBits_def]
  rfl

/-- The colour term of one ray. -/
private theorem v17_at (x0 x1 x2 : (⟨S1x4194304x3, .f32⟩ : BufTy).Contents (Elt Ideal)) (x4 : (⟨S1x4194304, .i32⟩ : BufTy).Contents (Elt Ideal)) (x5 : (⟨S1x1048576, .i32⟩ : BufTy).Contents (Elt Ideal)) (j : S1x4194304.Idx) :
    val_main_v17 (F := Ideal) x0 x1 x2 x4 x5 j
      = wOne * (wOne * (wZero + ∑ k : Fin 3, sq (x0 (rayCh j k)) (x1 (rayCh j k))))
          + (wOne * val_main_v3 (F := Ideal) x4 x5 j) * (wZero + ∑ k : Fin 3, sq (x0 (rayCh j k)) (x2 (rayCh j k))) := by
  rw [val_main_v17_apply, val_main_v16_apply, val_main_v15_apply, val_main_cst_3_apply, v8_at, v14_at]
  simp only [Ideal.mulf_def, Ideal.addf_def, Ideal.ofBits_def]

/-- The weighted opacity error of one ray. -/
private theorem v37_at (x3 : (⟨S1x4194304, .f32⟩ : BufTy).Contents (Elt Ideal)) (x4 : (⟨S1x4194304, .i32⟩ : BufTy).Contents (Elt Ideal)) (x5 : (⟨S1x1048576, .i32⟩ : BufTy).Contents (Elt Ideal)) (j : S1x4194304.Idx) :
    val_main_v37 (F := Ideal) x3 x4 x5 j = wOne * sq (val_main_v3 (F := Ideal) x4 x5 j) (x3 j) := by
  rw [val_main_v37_apply, val_main_v36_apply, val_main_cst_16_apply, val_main_v35_apply, val_main_v34_apply]
  simp only [Ideal.mulf_def, Ideal.subf_def, Ideal.ofBits_def]
  rfl

/-- The mean scene error. -/
private theorem v21_eq (x0 x1 : (⟨S1x4194304x3, .f32⟩ : BufTy).Contents (Elt Ideal)) :
    val_main_v21 (F := Ideal) x0 x1
      = scal (Ideal.div (wZero + ∑ j : Ray.Idx, wOne * (wZero + ∑ k : Fin 3, sq (x0 (rayCh j k)) (x1 (rayCh j k)))) wN) := by
  funext i
  rw [val_main_v21_apply, val_main_v20_apply, val_main_cst_7_apply, val_main_cst_6_apply]
  simp only [Ideal.hostDivf_def, Ideal.ofBits_def]
  unfold scal
  exact congrArg (fun s => Ideal.div (wZero + s) wN) (Finset.sum_congr rfl fun j _ => v8_at x0 x1 j)

/-- The mean mask-weighted object error. -/
private theorem v26_eq (x0 x2 : (⟨S1x4194304x3, .f32⟩ : BufTy).Contents (Elt Ideal)) (x4 : (⟨S1x4194304, .i32⟩ : BufTy).Contents (Elt Ideal)) (x5 : (⟨S1x1048576, .i32⟩ : BufTy).Contents (Elt Ideal)) :
    val_main_v26 (F := Ideal) x0 x2 x4 x5
      = scal (Ideal.div (wZero + ∑ j : Ray.Idx, (wOne * val_main_v3 (F := Ideal) x4 x5 j) * (wZero + ∑ k : Fin 3, sq (x0 (rayCh j k)) (x2 (rayCh j k)))) wN) := by
  funext i
  rw [val_main_v26_apply, val_main_v25_apply, val_main_cst_11_apply, val_main_cst_10_apply]
  simp only [Ideal.hostDivf_def, Ideal.ofBits_def]
  unfold scal
  exact congrArg (fun s => Ideal.div (wZero + s) wN) (Finset.sum_congr rfl fun j _ => v14_at x0 x2 x4 x5 j)

/-- The scene figure is the signal-to-noise figure of the mean scene error. -/
private theorem v31_eq (x0 x1 : (⟨S1x4194304x3, .f32⟩ : BufTy).Contents (Elt Ideal)) :
    val_main_v31 (F := Ideal) x0 x1 = psnrArr (val_main_v21 (F := Ideal) x0 x1) := by
  unfold val_main_v31 val_main_v30 val_main_call1_v0 val_main_call1_cst val_main_call2_v0 val_main_cst_14 val_main_v24
    val_main_cst_9 val_main_v23 val_main_cst_8 val_main_v22 psnrArr
  rfl

/-- The object figure is the signal-to-noise figure of the mean object error. -/
private theorem v33_eq (x0 x2 : (⟨S1x4194304x3, .f32⟩ : BufTy).Contents (Elt Ideal)) (x4 : (⟨S1x4194304, .i32⟩ : BufTy).Contents (Elt Ideal)) (x5 : (⟨S1x1048576, .i32⟩ : BufTy).Contents (Elt Ideal)) :
    val_main_v33 (F := Ideal) x0 x2 x4 x5 = psnrArr (val_main_v26 (F := Ideal) x0 x2 x4 x5) := by
  unfold val_main_v33 val_main_v32 val_main_call3_v0 val_main_call3_cst val_main_call4_v0 val_main_cst_15 val_main_v29
    val_main_cst_13 val_main_v28 val_main_cst_12 val_main_v27 psnrArr
  rfl

/-- The ray mask takes the values 0 and 1 only. -/
theorem mask01 (x4 : (⟨S1x4194304, .i32⟩ : BufTy).Contents (Elt Ideal)) (x5 : (⟨S1x1048576, .i32⟩ : BufTy).Contents (Elt Ideal)) (j : S1x4194304.Idx) :
    val_main_v3 (F := Ideal) x4 x5 j = 0 ∨ val_main_v3 (F := Ideal) x4 x5 j = 1 := by
  rw [val_main_v3_apply]
  generalize val_main_v2 (F := Ideal) x4 x5 j = b
  rcases BitVec.eq_zero_or_eq_one b with rfl | rfl
  · left
    show (((0#1 : BitVec 1).toNat : ℝ) : EReal) = 0
    simp
  · right
    show (((1#1 : BitVec 1).toNat : ℝ) : EReal) = 1
    simp

/-- The colour loss. -/
theorem ref_color (x0 x1 x2 : (⟨S1x4194304x3, .f32⟩ : BufTy).Contents (Elt Ideal)) (x4 : (⟨S1x4194304, .i32⟩ : BufTy).Contents (Elt Ideal)) (x5 : (⟨S1x1048576, .i32⟩ : BufTy).Contents (Elt Ideal)) :
    val_main_v19 (F := Ideal) x0 x1 x2 x4 x5
      = scal (Ideal.div (wZero + ∑ j : Ray.Idx, (wOne * (wOne * (wZero + ∑ k : Fin 3, sq (x0 (rayCh j k)) (x1 (rayCh j k))))
          + (wOne * val_main_v3 (F := Ideal) x4 x5 j) * (wZero + ∑ k : Fin 3, sq (x0 (rayCh j k)) (x2 (rayCh j k))))) wN) := by
  funext i
  rw [val_main_v19_apply, val_main_v18_apply, val_main_cst_5_apply, val_main_cst_4_apply]
  simp only [Ideal.hostDivf_def, Ideal.ofBits_def]
  unfold scal
  exact congrArg (fun s => Ideal.div (wZero + s) wN) (Finset.sum_congr rfl fun j _ => v17_at x0 x1 x2 x4 x5 j)

/-- The opacity loss. -/
theorem ref_opac (x3 : (⟨S1x4194304, .f32⟩ : BufTy).Contents (Elt Ideal)) (x4 : (⟨S1x4194304, .i32⟩ : BufTy).Contents (Elt Ideal)) (x5 : (⟨S1x1048576, .i32⟩ : BufTy).Contents (Elt Ideal)) :
    val_main_v39 (F := Ideal) x3 x4 x5
      = scal (Ideal.div (wZero + ∑ j : Ray.Idx, wOne * sq (val_main_v3 (F := Ideal) x4 x5 j) (x3 j)) wN) := by
  funext i
  rw [val_main_v39_apply, val_main_v38_apply, val_main_cst_18_apply, val_main_cst_17_apply]
  simp only [Ideal.hostDivf_def, Ideal.ofBits_def]
  unfold scal
  exact congrArg (fun s => Ideal.div (wZero + s) wN) (Finset.sum_congr rfl fun j _ => v37_at x3 x4 x5 j)

/-- The total loss is the sum of the two. -/
theorem ref_loss (x0 x1 x2 : (⟨S1x4194304x3, .f32⟩ : BufTy).Contents (Elt Ideal)) (x3 : (⟨S1x4194304, .f32⟩ : BufTy).Contents (Elt Ideal)) (x4 : (⟨S1x4194304, .i32⟩ : BufTy).Contents (Elt Ideal)) (x5 : (⟨S1x1048576, .i32⟩ : BufTy).Contents (Elt Ideal)) :
    val_main_v40 (F := Ideal) x0 x1 x2 x3 x4 x5
      = addf (F := Ideal) (φ := .f32) (val_main_v19 (F := Ideal) x0 x1 x2 x4 x5) (val_main_v39 (F := Ideal) x3 x4 x5) := by
  rfl

/-- The scene signal-to-noise figure. -/
theorem ref_psnr_scn (x0 x1 : (⟨S1x4194304x3, .f32⟩ : BufTy).Contents (Elt Ideal)) :
    val_main_v31 (F := Ideal) x0 x1
      = psnrArr (scal (Ideal.div (wZero + ∑ j : Ray.Idx, wOne * (wZero + ∑ k : Fin 3, sq (x0 (rayCh j k)) (x1 (rayCh j k)))) wN)) := by
  rw [v31_eq, v21_eq]

/-- The object signal-to-noise figure. -/
theorem ref_psnr_obj (x0 x2 : (⟨S1x4194304x3, .f32⟩ : BufTy).Contents (Elt Ideal)) (x4 : (⟨S1x4194304, .i32⟩ : BufTy).Contents (Elt Ideal)) (x5 : (⟨S1x1048576, .i32⟩ : BufTy).Contents (Elt Ideal)) :
    val_main_v33 (F := Ideal) x0 x2 x4 x5
      = psnrArr (scal (Ideal.div (wZero + ∑ j : Ray.Idx, (wOne * val_main_v3 (F := Ideal) x4 x5 j) * (wZero + ∑ k : Fin 3, sq (x0 (rayCh j k)) (x2 (rayCh j k)))) wN)) := by
  rw [v33_eq, v26_eq]

end Cert.ReferenceIdeal.RefRead

end
-- ==== Proof.Bridge.lean ====
/-
  The reference's five results are the kernel's functions of the three slab totals.

  A slab total is the total over the original index set (a re-laying keeps row-major positions), a colour array's
  total is the sum over rays of the sum over channels, and the mask broadcast along the channel axis reads the ray's
  mask at every channel. On nonnegative terms the mean of a sum is the sum of the means and a 0/1 weight moves inside
  the channel sum, so each of the reference's means of per-ray sums is the kernel's weighted mean of a slab total.
-/
import proofs.«135916_j29789893165394_2_alg».proof.Proof.RefRead
import proofs.«135916_j29789893165394_2_alg».proof.Proof.SumLaws

noncomputable section

open scoped BigOperators

namespace Cert.Bridge

open Idealize.ShloMosaic Idealize.ShloMosaic.ValueIdx
open Cert.LossSpec Cert.SumLaws Cert.ReferenceIdeal.ReadP Cert.ReferenceIdeal.RefRead

/-- The per-ray array with a unit channel axis. -/
abbrev Ray1 : Shape := ⟨3, ![1, 4194304, 1]⟩

variable (hr : Rgb.ShapeCasts SlabRgb) (hy : Ray.ShapeCasts SlabRay)
  (hb1 : Ray.BroadcastsInDim Ray1 ![0, 1]) (hb2 : Ray1.BroadcastsInDim Rgb ![0, 1, 2])

/-- The mask broadcast along the channel axis reads the ray's mask at every channel. -/
theorem bc_apply (w : Ray.Idx → EReal) (j : Ray.Idx) (k : Fin 3) :
    broadcastInDim Rgb ![0, 1, 2] hb2 (broadcastInDim Ray1 ![0, 1] hb1 w) (rayCh j k) = w j := by
  have h0 : (j 0).val = 0 := by have h : (j 0).val < 1 := (j 0).isLt; omega
  rw [broadcastInDim_apply ![0, 1, 2] hb2 _ (rayCh j k) (ix3 (⟨(j 0).val, (j 0).isLt⟩ : Fin 1) (⟨(j 1).val, (j 1).isLt⟩ : Fin 4194304) (0 : Fin 1))
        (fun a => by
          match a with
          | ⟨0, _⟩ => rw [if_pos (by rfl)]; exact h0
          | ⟨1, _⟩ => rw [if_neg (by intro h; have h' : (4194304 : ℕ) = 1 := h; omega)]; rfl
          | ⟨2, _⟩ => rw [if_pos (by rfl)]; rfl),
      broadcastInDim_apply ![0, 1] hb1 w _ j
        (fun a => by
          match a with
          | ⟨0, _⟩ => rw [if_pos (by rfl)]; exact h0
          | ⟨1, _⟩ => rw [if_neg (by intro h; have h' : (4194304 : ℕ) = 1 := h; omega)]; rfl)]

/-- The scene total over the slabs is the sum over rays and channels. -/
theorem sumScn_eq (x0 x1 : Rgb.Idx → EReal) :
    sumScn (shapeCast SlabRgb x0 hr) (shapeCast SlabRgb x1 hr)
      = ∑ j : Ray.Idx, ∑ k : Fin 3, sq (x0 (rayCh j k)) (x1 (rayCh j k)) := by
  unfold sumScn
  rw [← sum_rgb (fun i => sq (x0 i) (x1 i)), ← sum_shapeCast hr (fun i => sq (x0 i) (x1 i))]
  rfl

/-- The weighted object total over the slabs is the sum over rays and channels of the ray's weight times the error. -/
theorem sumObj_eq (x0 x2 : Rgb.Idx → EReal) (w : Ray.Idx → EReal) :
    sumObj (shapeCast SlabRgb x0 hr) (shapeCast SlabRgb x2 hr)
        (shapeCast SlabRgb (broadcastInDim Rgb ![0, 1, 2] hb2 (broadcastInDim Ray1 ![0, 1] hb1 w)) hr)
      = ∑ j : Ray.Idx, ∑ k : Fin 3, w j * sq (x0 (rayCh j k)) (x2 (rayCh j k)) := by
  unfold sumObj
  have e : (∑ j : Ray.Idx, ∑ k : Fin 3, w j * sq (x0 (rayCh j k)) (x2 (rayCh j k)))
      = ∑ i : Rgb.Idx, broadcastInDim Rgb ![0, 1, 2] hb2 (broadcastInDim Ray1 ![0, 1] hb1 w) i * sq (x0 i) (x2 i) := by
    rw [sum_rgb]
    exact Finset.sum_congr rfl fun j _ => Finset.sum_congr rfl fun k _ => by rw [bc_apply]
  rw [e, ← sum_shapeCast hr (fun i => broadcastInDim Rgb ![0, 1, 2] hb2 (broadcastInDim Ray1 ![0, 1] hb1 w) i * sq (x0 i) (x2 i))]
  rfl

/-- The opacity total over the slabs is the sum over rays. -/
theorem sumOp_eq (x3 w : Ray.Idx → EReal) :
    sumOp (shapeCast SlabRay x3 hy) (shapeCast SlabRay w hy) = ∑ j : Ray.Idx, sq (w j) (x3 j) := by
  unfold sumOp
  rw [← sum_shapeCast hy (fun j => sq (w j) (x3 j))]
  rfl

section Results

open Cert.ReferenceIdeal

variable (x0 x1 x2 : (⟨S1x4194304x3, .f32⟩ : BufTy).Contents (Elt Ideal)) (x3 : (⟨S1x4194304, .f32⟩ : BufTy).Contents (Elt Ideal)) (x4 : (⟨S1x4194304, .i32⟩ : BufTy).Contents (Elt Ideal)) (x5 : (⟨S1x1048576, .i32⟩ : BufTy).Contents (Elt Ideal))

/-- The colour loss: the mean of the per-ray sums is the sum of the two weighted means of the slab totals. -/
theorem bridge_color :
    val_main_v19 (F := Ideal) x0 x1 x2 x4 x5 = kColor (scal (sumScn (shapeCast SlabRgb x0 hr) (shapeCast SlabRgb x1 hr))) (scal (sumObj (shapeCast SlabRgb x0 hr) (shapeCast SlabRgb x2 hr) (shapeCast SlabRgb (broadcastInDim Rgb ![0, 1, 2] hb2 (broadcastInDim Ray1 ![0, 1] hb1 (val_main_v3 (F := Ideal) x4 x5))) hr))) := by
  rw [ref_color, sumScn_eq, sumObj_eq]
  funext i
  unfold kColor oneMul meanArr scal
  simp only [addf, mulf, Host.divf, constant, Ideal.addf_def, Ideal.mulf_def, Ideal.hostDivf_def, Ideal.ofBits_def]
  exact color_law _ _ _ (fun j k => sq_nonneg _ _) (fun j k => sq_nonneg _ _) (mask01 x4 x5)

/-- The opacity loss. -/
theorem bridge_opac :
    val_main_v39 (F := Ideal) x3 x4 x5 = kOpac (scal (sumOp (shapeCast SlabRay x3 hy) (shapeCast SlabRay (val_main_v3 (F := Ideal) x4 x5) hy))) := by
  rw [ref_opac, sumOp_eq]
  funext i
  unfold kOpac oneMul meanArr scal
  simp only [addf, mulf, Host.divf, constant, Ideal.addf_def, Ideal.mulf_def, Ideal.hostDivf_def, Ideal.ofBits_def]
  exact op_law _

/-- The total loss. -/
theorem bridge_loss :
    val_main_v40 (F := Ideal) x0 x1 x2 x3 x4 x5 = kLoss (scal (sumScn (shapeCast SlabRgb x0 hr) (shapeCast SlabRgb x1 hr))) (scal (sumObj (shapeCast SlabRgb x0 hr) (shapeCast SlabRgb x2 hr) (shapeCast SlabRgb (broadcastInDim Rgb ![0, 1, 2] hb2 (broadcastInDim Ray1 ![0, 1] hb1 (val_main_v3 (F := Ideal) x4 x5))) hr))) (scal (sumOp (shapeCast SlabRay x3 hy) (shapeCast SlabRay (val_main_v3 (F := Ideal) x4 x5) hy))) := by
  rw [ref_loss, bridge_color hr hb1 hb2, bridge_opac hy]
  rfl

/-- The scene signal-to-noise figure. -/
theorem bridge_psnr_scn :
    val_main_v31 (F := Ideal) x0 x1 = kPsnr (scal (sumScn (shapeCast SlabRgb x0 hr) (shapeCast SlabRgb x1 hr))) := by
  rw [ref_psnr_scn, sumScn_eq]
  unfold kPsnr
  refine congrArg psnrArr (funext fun i => ?_)
  unfold oneMul meanArr scal
  simp only [addf, mulf, Host.divf, constant, Ideal.addf_def, Ideal.mulf_def, Ideal.hostDivf_def, Ideal.ofBits_def]
  exact scn_law _

/-- The object signal-to-noise figure. -/
theorem bridge_psnr_obj :
    val_main_v33 (F := Ideal) x0 x2 x4 x5 = kPsnr (scal (sumObj (shapeCast SlabRgb x0 hr) (shapeCast SlabRgb x2 hr) (shapeCast SlabRgb (broadcastInDim Rgb ![0, 1, 2] hb2 (broadcastInDim Ray1 ![0, 1] hb1 (val_main_v3 (F := Ideal) x4 x5))) hr))) := by
  rw [ref_psnr_obj, sumObj_eq]
  unfold kPsnr
  refine congrArg psnrArr (funext fun i => ?_)
  unfold oneMul meanArr scal
  simp only [addf, mulf, Host.divf, constant, Ideal.addf_def, Ideal.mulf_def, Ideal.hostDivf_def, Ideal.ofBits_def]
  exact obj_law _ _ (mask01 x4 x5)

end Results

end Cert.Bridge

end
-- ==== Proof.lean ====
/-
  The certificate of a ray-loss kernel against its jnp reference, over the extended reals.

  Both programs take three colour arrays [1, 4194304, 3], an opacity [1, 4194304] and two integer arrays from which the
  host computes a 0/1 ray mask (the gathered instance number equals 1). The kernel re-lays the arrays into lane-dense
  slabs and, over a grid of 32 blocks, accumulates three totals of squared differences — scene colour, mask-weighted
  object colour, opacity against the mask — which the host then divides by the number of rays and turns into the total
  loss, the colour loss, the opacity loss and two signal-to-noise figures. The reference sums the squared colour
  differences per ray over the three channels first and takes means over rays.

  The two agree at the exact values: a re-laying keeps every element's row-major position, so a slab total is the
  total over the original index set, which is the sum over rays of the sum over channels; squares are nonnegative on
  the extended reals, so the mean of a sum of them is the sum of the means, and the mask, being 0 or 1, moves inside
  the channel sum. No finiteness of the inputs is used.

  The frames of the two kernel programs are the generated frame certificates; the reference's frame is its run (read in stages) with
  the results dropped; the idealization rewrote no operation, so its claim is trivial.
-/
import proofs.«135916_j29789893165394_2_alg».proof.Defs
import proofs.«135916_j29789893165394_2_alg».proof.Proof.Gen.Kernel
import proofs.«135916_j29789893165394_2_alg».proof.Proof.Gen.Kernel.Skeleton
import proofs.«135916_j29789893165394_2_alg».proof.Proof.Gen.Kernel.Launch
import proofs.«135916_j29789893165394_2_alg».proof.Proof.Gen.Kernel.Points
import proofs.«135916_j29789893165394_2_alg».proof.Proof.Gen.Kernel.Frame
import proofs.«135916_j29789893165394_2_alg».proof.Proof.Gen.KernelIdeal
import proofs.«135916_j29789893165394_2_alg».proof.Proof.Gen.KernelIdeal.Skeleton
import proofs.«135916_j29789893165394_2_alg».proof.Proof.Gen.KernelIdeal.Launch
import proofs.«135916_j29789893165394_2_alg».proof.Proof.Gen.KernelIdeal.Points
import proofs.«135916_j29789893165394_2_alg».proof.Proof.Gen.KernelIdeal.Frame
import proofs.«135916_j29789893165394_2_alg».proof.Proof.Gen.ReferenceIdeal
import proofs.«135916_j29789893165394_2_alg».proof.Proof.RefRunP
import proofs.«135916_j29789893165394_2_alg».proof.Proof.RefReadP
import proofs.«135916_j29789893165394_2_alg».proof.Proof.RefRunH
import proofs.«135916_j29789893165394_2_alg».proof.Proof.Gen.Pre_finite_inputs
import proofs.«135916_j29789893165394_2_alg».proof.Proof.KRun
import proofs.«135916_j29789893165394_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The ray mask as the kernel program's host computes it is the reference's: the same operations of the same two
    integer arguments. -/
theorem mask_eq (x4 : (⟨Cert.ReferenceIdeal.S1x4194304, .i32⟩ : BufTy).Contents (Elt Ideal)) (x5 : (⟨Cert.ReferenceIdeal.S1x1048576, .i32⟩ : BufTy).Contents (Elt Ideal)) :
    Cert.KernelIdeal.KHost.maskK x4 x5 = Cert.ReferenceIdeal.ReadP.val_main_v3 (F := Ideal) x4 x5 := rfl

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2.2.2) (Cert.ReferenceIdeal.RunH.run m ρ)

/-- The idealization rewrote no operation. -/
theorem preserves : Cert.preserves_Kernel_KernelIdeal := trivial

/-- From memories agreeing on the arguments both idealized programs end at the same five values: the kernel's run
    states them as the loss functions of the three slab totals, and the reference's five terms are those functions. -/
theorem algebraic : Cert.algebraic_KernelIdeal_ReferenceIdeal := by
  intro m ρ m' ρ' _ hagree
  refine ⟨_, _, _, _, _, Cert.KernelIdeal.KRun.run m ρ, ?_⟩
  refine (θ_run Cert.ReferenceIdeal.defs _ _).mono (fun _ h c => ?_) (Cert.ReferenceIdeal.RunH.run m' ρ')
  obtain ⟨h40, h19, h39, h31, h33, hargs⟩ := h c
  obtain ⟨a0, a1, a2, a3, a4, a5⟩ := hagree c
  refine ⟨h40.trans ?_, h19.trans ?_, h39.trans ?_, h31.trans ?_, h33.trans ?_, hargs⟩
  · rw [a0, a1, a2, a3, a4, a5, mask_eq]
    exact Cert.Bridge.bridge_loss (hr := Cert.KernelIdeal.Facts₀.shapeCasts_S1x4194304x3_S24576x512) (hy := Cert.KernelIdeal.Facts₀.shapeCasts_S1x4194304_S8192x512) (hb1 := Cert.KernelIdeal.Facts₀.bcast_S1x4194304_S1x4194304x1_0_1) (hb2 := Cert.KernelIdeal.Facts₀.bcast_S1x4194304x1_S1x4194304x3_0_1_2) _ _ _ _ _ _
  · rw [a0, a1, a2, a4, a5, mask_eq]
    exact Cert.Bridge.bridge_color (hr := Cert.KernelIdeal.Facts₀.shapeCasts_S1x4194304x3_S24576x512) (hb1 := Cert.KernelIdeal.Facts₀.bcast_S1x4194304_S1x4194304x1_0_1) (hb2 := Cert.KernelIdeal.Facts₀.bcast_S1x4194304x1_S1x4194304x3_0_1_2) _ _ _ _ _
  · rw [a3, a4, a5, mask_eq]
    exact Cert.Bridge.bridge_opac (hy := Cert.KernelIdeal.Facts₀.shapeCasts_S1x4194304_S8192x512) _ _ _
  · rw [a0, a1]
    exact Cert.Bridge.bridge_psnr_scn (hr := Cert.KernelIdeal.Facts₀.shapeCasts_S1x4194304x3_S24576x512) _ _
  · rw [a0, a2, a4, a5, mask_eq]
    exact Cert.Bridge.bridge_psnr_obj (hr := Cert.KernelIdeal.Facts₀.shapeCasts_S1x4194304x3_S24576x512) (hb1 := Cert.KernelIdeal.Facts₀.bcast_S1x4194304_S1x4194304x1_0_1) (hb2 := Cert.KernelIdeal.Facts₀.bcast_S1x4194304x1_S1x4194304x3_0_1_2) _ _ _ _

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
